-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v28) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x4096 : Shape := ⟨2, ![4096, 4096]⟩
abbrev S256x16x96 : Shape := ⟨3, ![256, 16, 96]⟩
abbrev S256x96 : Shape := ⟨2, ![256, 96]⟩
abbrev S256x64x8 : Shape := ⟨3, ![256, 64, 8]⟩
abbrev S256x96x16 : Shape := ⟨3, ![256, 96, 16]⟩
abbrev S256x16 : Shape := ⟨2, ![256, 16]⟩
abbrev S_ : Shape := ⟨0, ![]⟩

class Facts : Prop where
  bcast_S_S4096x4096 : S_.BroadcastsInDim S4096x4096 (![] : Fin 0 → Fin S4096x4096.rank)
  reducesTo_S4096x4096_S_d0_1 : S4096x4096.ReducesTo [0, 1] S_
  h_S_ : 0 < S_.numel
  bcast_S_S256x16x96 : S_.BroadcastsInDim S256x16x96 (![] : Fin 0 → Fin S256x16x96.rank)
  reducesTo_S256x16x96_S_d0_1_2 : S256x16x96.ReducesTo [0, 1, 2] S_
  bcast_S_S256x96 : S_.BroadcastsInDim S256x96 (![] : Fin 0 → Fin S256x96.rank)
  reducesTo_S256x96_S_d0_1 : S256x96.ReducesTo [0, 1] S_
  bcast_S_S256x64x8 : S_.BroadcastsInDim S256x64x8 (![] : Fin 0 → Fin S256x64x8.rank)
  reducesTo_S256x64x8_S_d0_1_2 : S256x64x8.ReducesTo [0, 1, 2] S_
  bcast_S_S256x96x16 : S_.BroadcastsInDim S256x96x16 (![] : Fin 0 → Fin S256x96x16.rank)
  reducesTo_S256x96x16_S_d0_1_2 : S256x96x16.ReducesTo [0, 1, 2] S_
  bcast_S_S256x16 : S_.BroadcastsInDim S256x16 (![] : Fin 0 → Fin S256x16.rank)
  reducesTo_S256x16_S_d0_1 : S256x16.ReducesTo [0, 1] S_

variable [Facts]

def fn_part2 {F : FTy → Type} [FloatOps F] (main_arg7 : FVec F S256x16 .f32) (main_v33 : IVec S_ 1) : IVec S_ 1 :=
  let main_v34 : FVec F S256x16 .f32 := Host.absf main_arg7
  let main_cst_12 : FVec F S_ .f32 := constant S_ .f32 0x7F800000#32
  let main_v35 : FVec F S256x16 .f32 := broadcastInDim S256x16 ![] bcast_S_S256x16 main_cst_12
  let main_v36 : IVec S256x16 1 := cmpf .olt main_v34 main_v35
  let main_c_13 : IVec S_ 1 := constantI S_ 1 1#1
  let main_v37 : IVec S_ 1 := (fun x v => Host.reduce IntOp.andi x v reducesTo_S256x16_S_d0_1 h_S_) main_v36 main_c_13
  let main_v38 : IVec S_ 1 := andi main_v33 main_v37
  main_v38

def fn_part1 {F : FTy → Type} [FloatOps F] (main_arg4 : FVec F S256x64x8 .f32) (main_arg5 : FVec F S256x96x16 .f32) (main_arg6 : FVec F S256x16 .f32) (main_arg7 : FVec F S256x16 .f32) (main_v13 : IVec S_ 1) (main_v16 : IVec S256x64x8 1) : IVec S_ 1 :=
  let main_c_5 : IVec S_ 1 := constantI S_ 1 1#1
  let main_v17 : IVec S_ 1 := (fun x v => Host.reduce IntOp.andi x v reducesTo_S256x64x8_S_d0_1_2 h_S_) main_v16 main_c_5
  let main_v18 : IVec S_ 1 := andi main_v13 main_v17
  let main_v19 : FVec F S256x64x8 .f32 := Host.absf main_arg4
  let main_cst_6 : FVec F S_ .f32 := constant S_ .f32 0x7F800000#32
  let main_v20 : FVec F S256x64x8 .f32 := broadcastInDim S256x64x8 ![] bcast_S_S256x64x8 main_cst_6
  let main_v21 : IVec S256x64x8 1 := cmpf .olt main_v19 main_v20
  let main_c_7 : IVec S_ 1 := constantI S_ 1 1#1
  let main_v22 : IVec S_ 1 := (fun x v => Host.reduce IntOp.andi x v reducesTo_S256x64x8_S_d0_1_2 h_S_) main_v21 main_c_7
  let main_v23 : IVec S_ 1 := andi main_v18 main_v22
  let main_v24 : FVec F S256x96x16 .f32 := Host.absf main_arg5
  let main_cst_8 : FVec F S_ .f32 := constant S_ .f32 0x7F800000#32
  let main_v25 : FVec F S256x96x16 .f32 := broadcastInDim S256x96x16 ![] bcast_S_S256x96x16 main_cst_8
  let main_v26 : IVec S256x96x16 1 := cmpf .olt main_v24 main_v25
  let main_c_9 : IVec S_ 1 := constantI S_ 1 1#1
  let main_v27 : IVec S_ 1 := (fun x v => Host.reduce IntOp.andi x v reducesTo_S256x96x16_S_d0_1_2 h_S_) main_v26 main_c_9
  let main_v28 : IVec S_ 1 := andi main_v23 main_v27
  let main_v29 : FVec F S256x16 .f32 := Host.absf main_arg6
  let main_cst_10 : FVec F S_ .f32 := constant S_ .f32 0x7F800000#32
  let main_v30 : FVec F S256x16 .f32 := broadcastInDim S256x16 ![] bcast_S_S256x16 main_cst_10
  let main_v31 : IVec S256x16 1 := cmpf .olt main_v29 main_v30
  let main_c_11 : IVec S_ 1 := constantI S_ 1 1#1
  let main_v32 : IVec S_ 1 := (fun x v => Host.reduce IntOp.andi x v reducesTo_S256x16_S_d0_1 h_S_) main_v31 main_c_11
  let main_v33 : IVec S_ 1 := andi main_v28 main_v32
  fn_part2 (F := F) main_arg7 main_v33

def fn {F : FTy → Type} [FloatOps F] (main_arg0 : FVec F S4096x4096 .f32) (main_arg1 : FVec F S256x16x96 .f32) (main_arg2 : FVec F S256x96 .f32) (main_arg3 : FVec F S256x64x8 .f32) (main_arg4 : FVec F S256x64x8 .f32) (main_arg5 : FVec F S256x96x16 .f32) (main_arg6 : FVec F S256x16 .f32) (main_arg7 : FVec F S256x16 .f32) : IVec S_ 1 :=
  let main_v0 : FVec F S4096x4096 .f32 := Host.absf main_arg0
  let main_cst : FVec F S_ .f32 := constant S_ .f32 0x7F800000#32
  let main_v1 : FVec F S4096x4096 .f32 := broadcastInDim S4096x4096 ![] bcast_S_S4096x4096 main_cst
  let main_v2 : IVec S4096x4096 1 := cmpf .olt main_v0 main_v1
  let main_c : IVec S_ 1 := constantI S_ 1 1#1
  let main_v3 : IVec S_ 1 := (fun x v => Host.reduce IntOp.andi x v reducesTo_S4096x4096_S_d0_1 h_S_) main_v2 main_c
  let main_v4 : FVec F S256x16x96 .f32 := Host.absf main_arg1
  let main_cst_0 : FVec F S_ .f32 := constant S_ .f32 0x7F800000#32
  let main_v5 : FVec F S256x16x96 .f32 := broadcastInDim S256x16x96 ![] bcast_S_S256x16x96 main_cst_0
  let main_v6 : IVec S256x16x96 1 := cmpf .olt main_v4 main_v5
  let main_c_1 : IVec S_ 1 := constantI S_ 1 1#1
  let main_v7 : IVec S_ 1 := (fun x v => Host.reduce IntOp.andi x v reducesTo_S256x16x96_S_d0_1_2 h_S_) main_v6 main_c_1
  let main_v8 : IVec S_ 1 := andi main_v3 main_v7
  let main_v9 : FVec F S256x96 .f32 := Host.absf main_arg2
  let main_cst_2 : FVec F S_ .f32 := constant S_ .f32 0x7F800000#32
  let main_v10 : FVec F S256x96 .f32 := broadcastInDim S256x96 ![] bcast_S_S256x96 main_cst_2
  let main_v11 : IVec S256x96 1 := cmpf .olt main_v9 main_v10
  let main_c_3 : IVec S_ 1 := constantI S_ 1 1#1
  let main_v12 : IVec S_ 1 := (fun x v => Host.reduce IntOp.andi x v reducesTo_S256x96_S_d0_1 h_S_) main_v11 main_c_3
  let main_v13 : IVec S_ 1 := andi main_v8 main_v12
  let main_v14 : FVec F S256x64x8 .f32 := Host.absf main_arg3
  let main_cst_4 : FVec F S_ .f32 := constant S_ .f32 0x7F800000#32
  let main_v15 : FVec F S256x64x8 .f32 := broadcastInDim S256x64x8 ![] bcast_S_S256x64x8 main_cst_4
  let main_v16 : IVec S256x64x8 1 := cmpf .olt main_v14 main_v15
  fn_part1 (F := F) main_arg4 main_arg5 main_arg6 main_arg7 main_v13 main_v16
-- ==== Kernel.lean ====
abbrev S4096x4096 : Shape := ⟨2, ![4096, 4096]⟩
abbrev S256x16x96 : Shape := ⟨3, ![256, 16, 96]⟩
abbrev S256x96 : Shape := ⟨2, ![256, 96]⟩
abbrev S256x64x8 : Shape := ⟨3, ![256, 64, 8]⟩
abbrev S256x96x16 : Shape := ⟨3, ![256, 96, 16]⟩
abbrev S256x16 : Shape := ⟨2, ![256, 16]⟩
abbrev S16x64x4x16x64x4 : Shape := ⟨6, ![16, 64, 4, 16, 64, 4]⟩
abbrev S16x16x64x64x4x4 : Shape := ⟨6, ![16, 16, 64, 64, 4, 4]⟩
abbrev S256x64x64x16 : Shape := ⟨4, ![256, 64, 64, 16]⟩
abbrev S8x16x64x16 : Shape := ⟨4, ![8, 16, 64, 16]⟩
abbrev S8x16x96 : Shape := ⟨3, ![8, 16, 96]⟩
abbrev S8x96 : Shape := ⟨2, ![8, 96]⟩
abbrev S8x16x8 : Shape := ⟨3, ![8, 16, 8]⟩
abbrev S8x64x8 : Shape := ⟨3, ![8, 64, 8]⟩
abbrev S8x96x16 : Shape := ⟨3, ![8, 96, 16]⟩
abbrev S8x16 : Shape := ⟨2, ![8, 16]⟩
abbrev S8x1024x16 : Shape := ⟨3, ![8, 1024, 16]⟩
abbrev S8x1024x96 : Shape := ⟨3, ![8, 1024, 96]⟩
abbrev S8x16x64x96 : Shape := ⟨4, ![8, 16, 64, 96]⟩
abbrev S8x1x1x96 : Shape := ⟨4, ![8, 1, 1, 96]⟩
abbrev S8x16x64x8 : Shape := ⟨4, ![8, 16, 64, 8]⟩
abbrev S8x16x1x8 : Shape := ⟨4, ![8, 16, 1, 8]⟩
abbrev S8x1x64x8 : Shape := ⟨4, ![8, 1, 64, 8]⟩
abbrev S8x16x64x80 : Shape := ⟨4, ![8, 16, 64, 80]⟩
abbrev S8x1x1x16 : Shape := ⟨4, ![8, 1, 1, 16]⟩

abbrev nBuf : Space → Nat
  | .hbm => 15
  | .vmem => 18
  | .smem => 0
  | _ => 0

abbrev bufTy : (tb : Table) → Fin (tcTables nBuf tb) → BufTy
  | .hbm, ⟨0, _⟩ => ⟨S4096x4096, .f32⟩
  | .hbm, ⟨1, _⟩ => ⟨S256x16x96, .f32⟩
  | .hbm, ⟨2, _⟩ => ⟨S256x96, .f32⟩
  | .hbm, ⟨3, _⟩ => ⟨S256x64x8, .f32⟩
  | .hbm, ⟨4, _⟩ => ⟨S256x64x8, .f32⟩
  | .hbm, ⟨5, _⟩ => ⟨S256x96x16, .f32⟩
  | .hbm, ⟨6, _⟩ => ⟨S256x16, .f32⟩
  | .hbm, ⟨7, _⟩ => ⟨S256x16, .f32⟩
  | .hbm, ⟨8, _⟩ => ⟨S16x64x4x16x64x4, .f32⟩
  | .hbm, ⟨9, _⟩ => ⟨S16x16x64x64x4x4, .f32⟩
  | .hbm, ⟨10, _⟩ => ⟨S256x64x64x16, .f32⟩
  | .hbm, ⟨11, _⟩ => ⟨S256x64x64x16, .f32⟩
  | .hbm, ⟨12, _⟩ => ⟨S16x16x64x64x4x4, .f32⟩
  | .hbm, ⟨13, _⟩ => ⟨S16x64x4x16x64x4, .f32⟩
  | .hbm, ⟨14, _⟩ => ⟨S4096x4096, .f32⟩
  | .local _ .vmem, ⟨0, _⟩ => ⟨S8x16x64x16, .f32⟩
  | .local _ .vmem, ⟨1, _⟩ => ⟨S8x16x64x16, .f32⟩
  | .local _ .vmem, ⟨2, _⟩ => ⟨S8x16x96, .f32⟩
  | .local _ .vmem, ⟨3, _⟩ => ⟨S8x16x96, .f32⟩
  | .local _ .vmem, ⟨4, _⟩ => ⟨S8x96, .f32⟩
  | .local _ .vmem, ⟨5, _⟩ => ⟨S8x96, .f32⟩
  | .local _ .vmem, ⟨6, _⟩ => ⟨S8x16x8, .f32⟩
  | .local _ .vmem, ⟨7, _⟩ => ⟨S8x16x8, .f32⟩
  | .local _ .vmem, ⟨8, _⟩ => ⟨S8x64x8, .f32⟩
  | .local _ .vmem, ⟨9, _⟩ => ⟨S8x64x8, .f32⟩
  | .local _ .vmem, ⟨10, _⟩ => ⟨S8x96x16, .f32⟩
  | .local _ .vmem, ⟨11, _⟩ => ⟨S8x96x16, .f32⟩
  | .local _ .vmem, ⟨12, _⟩ => ⟨S8x16, .f32⟩
  | .local _ .vmem, ⟨13, _⟩ => ⟨S8x16, .f32⟩
  | .local _ .vmem, ⟨14, _⟩ => ⟨S8x16, .f32⟩
  | .local _ .vmem, ⟨15, _⟩ => ⟨S8x16, .f32⟩
  | .local _ .vmem, ⟨16, _⟩ => ⟨S8x16x64x16, .f32⟩
  | .local _ .vmem, ⟨17, _⟩ => ⟨S8x16x64x16, .f32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![32, 4], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_8 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S8x16x64x16 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x16x96 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S8x96 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S8x16x8 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S8x64x8 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S8x96x16 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S8x16 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S8x16 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S8x16x64x16 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

class Facts₀ : Prop where
  shapeCasts_S4096x4096_S16x64x4x16x64x4 : S4096x4096.ShapeCasts S16x64x4x16x64x4
  transposes_S16x64x4x16x64x4_S16x16x64x64x4x4_0_3_1_4_2_5 : S16x64x4x16x64x4.Transposes [0, 3, 1, 4, 2, 5] S16x16x64x64x4x4
  shapeCasts_S16x16x64x64x4x4_S256x64x64x16 : S16x16x64x64x4x4.ShapeCasts S256x64x64x16
  inb_S8x16x64x16_S8x16x64x16_0_0_0_0 : ∀ a, (![0, 0, 0, 0] : Fin 4 → Nat) a + S8x16x64x16.size a ≤ S8x16x64x16.size a
  h_S8x16x64x16 : 0 < S8x16x64x16.numel
  shapeCasts_S8x16x64x16_S8x16x64x16 : S8x16x64x16.ShapeCasts S8x16x64x16
  shapeCasts_S8x16x64x16_S8x1024x16 : S8x16x64x16.ShapeCasts S8x1024x16
  inb_S8x16x96_S8x16x96_0_0_0 : ∀ a, (![0, 0, 0] : Fin 3 → Nat) a + S8x16x96.size a ≤ S8x16x96.size a
  h_S8x16x96 : 0 < S8x16x96.numel
  bitsLt_bf16_f32 : FTy.bits .bf16 < FTy.bits .f32
  shapeCasts_S8x1024x96_S8x16x64x96 : S8x1024x96.ShapeCasts S8x16x64x96
  inb_S8x96_S8x96_0_0 : ∀ a, (![0, 0] : Fin 2 → Nat) a + S8x96.size a ≤ S8x96.size a
  h_S8x96 : 0 < S8x96.numel
  shapeCasts_S8x96_S8x1x1x96 : S8x96.ShapeCasts S8x1x1x96
  broadcasts_S8x1x1x96_S8x16x64x96 : S8x1x1x96.Broadcasts S8x16x64x96
  inb_S8x16x8_S8x16x8_0_0_0 : ∀ a, (![0, 0, 0] : Fin 3 → Nat) a + S8x16x8.size a ≤ S8x16x8.size a
  h_S8x16x8 : 0 < S8x16x8.numel
  inb_S8x64x8_S8x64x8_0_0_0 : ∀ a, (![0, 0, 0] : Fin 3 → Nat) a + S8x64x8.size a ≤ S8x64x8.size a
  h_S8x64x8 : 0 < S8x64x8.numel
  slices_S8x16x64x96_o0_0_0_0_S8x16x64x8 : S8x16x64x96.Slices ![0, 0, 0, 0] S8x16x64x8
  shapeCasts_S8x16x8_S8x16x1x8 : S8x16x8.ShapeCasts S8x16x1x8
  broadcasts_S8x16x1x8_S8x16x64x8 : S8x16x1x8.Broadcasts S8x16x64x8
  slices_S8x16x64x96_o0_0_0_8_S8x16x64x8 : S8x16x64x96.Slices ![0, 0, 0, 8] S8x16x64x8
  shapeCasts_S8x64x8_S8x1x64x8 : S8x64x8.ShapeCasts S8x1x64x8
  broadcasts_S8x1x64x8_S8x16x64x8 : S8x1x64x8.Broadcasts S8x16x64x8
  slices_S8x16x64x96_o0_0_0_16_S8x16x64x80 : S8x16x64x96.Slices ![0, 0, 0, 16] S8x16x64x80
  concatenates_S8x16x64x8_S8x16x64x8_S8x16x64x80_S8x16x64x96_d3 : Shape.Concatenates [S8x16x64x8, S8x16x64x8, S8x16x64x80] S8x16x64x96 3
  shapeCasts_S8x16x64x96_S8x1024x96 : S8x16x64x96.ShapeCasts S8x1024x96
  inb_S8x96x16_S8x96x16_0_0_0 : ∀ a, (![0, 0, 0] : Fin 3 → Nat) a + S8x96x16.size a ≤ S8x96x16.size a
  h_S8x96x16 : 0 < S8x96x16.numel
  shapeCasts_S8x1024x16_S8x16x64x16 : S8x1024x16.ShapeCasts S8x16x64x16
  inb_S8x16_S8x16_0_0 : ∀ a, (![0, 0] : Fin 2 → Nat) a + S8x16.size a ≤ S8x16.size a
  h_S8x16 : 0 < S8x16.numel
  shapeCasts_S8x16_S8x1x1x16 : S8x16.ShapeCasts S8x1x1x16
  broadcasts_S8x1x1x16_S8x16x64x16 : S8x1x1x16.Broadcasts S8x16x64x16
  shapeCasts_S256x64x64x16_S16x16x64x64x4x4 : S256x64x64x16.ShapeCasts S16x16x64x64x4x4
  transposes_S16x16x64x64x4x4_S16x64x4x16x64x4_0_2_4_1_3_5 : S16x16x64x64x4x4.Transposes [0, 2, 4, 1, 3, 5] S16x64x4x16x64x4
  shapeCasts_S16x64x4x16x64x4_S4096x4096 : S16x64x4x16x64x4.ShapeCasts S4096x4096
  dot_S8x1024x16_S8x16x96_S8x1024x96_2_1_1_2_0_0_wf : DotDims.WF S8x1024x16 S8x16x96 S8x1024x96 [2] [1] [1] [2] [0] [0]
  dot_S8x1024x96_S8x96x16_S8x1024x16_2_1_1_2_0_0_wf : DotDims.WF S8x1024x96 S8x96x16 S8x1024x16 [2] [1] [1] [2] [0] [0]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x16x64x16.size a ≤ S256x64x64x16.size a
  hwx0_0 : ∀ i : grid0.Coords, EltTy.bits .f32 = 32 ∨ (Rect.block (s := S256x64x64x16) S8x16x64x16.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8x16x96.size a ≤ S256x16x96.size a
  hwx0_1 : ∀ i : grid0.Coords, EltTy.bits .f32 = 32 ∨ (Rect.block (s := S256x16x96) S8x16x96.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8x96.size a ≤ S256x96.size a
  hwx0_2 : ∀ i : grid0.Coords, EltTy.bits .f32 = 32 ∨ (Rect.block (s := S256x96) S8x96.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S8x16x8.size a ≤ S256x64x8.size a
  hwx0_3 : ∀ i : grid0.Coords, EltTy.bits .f32 = 32 ∨ (Rect.block (s := S256x64x8) S8x16x8.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S8x64x8.size a ≤ S256x64x8.size a
  hwx0_4 : ∀ i : grid0.Coords, EltTy.bits .f32 = 32 ∨ (Rect.block (s := S256x64x8) S8x64x8.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S8x96x16.size a ≤ S256x96x16.size a
  hwx0_5 : ∀ i : grid0.Coords, EltTy.bits .f32 = 32 ∨ (Rect.block (s := S256x96x16) S8x96x16.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S8x16.size a ≤ S256x16.size a
  hwx0_6 : ∀ i : grid0.Coords, EltTy.bits .f32 = 32 ∨ (Rect.block (s := S256x16) S8x16.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S8x16.size a ≤ S256x16.size a
  hwx0_7 : ∀ i : grid0.Coords, EltTy.bits .f32 = 32 ∨ (Rect.block (s := S256x16) S8x16.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S8x16x64x16.size a ≤ S256x64x64x16.size a
  hwx0_8 : ∀ i : grid0.Coords, EltTy.bits .f32 = 32 ∨ (Rect.block (s := S256x64x64x16) S8x16x64x16.size (cc0_transform_8 i) (hinb0_8 i)).WholeWords (EltTy.packing .f32)

variable [Facts₀]

def dot_S8x1024x16_S8x16x96_S8x1024x96_2_1_1_2_0_0 : DotDims S8x1024x16 S8x16x96 S8x1024x96 where
  lhsContracting := [2]
  rhsContracting := [1]
  lhsNonContracting := [1]
  rhsNonContracting := [2]
  lhsBatch := [0]
  rhsBatch := [0]
  wf := dot_S8x1024x16_S8x16x96_S8x1024x96_2_1_1_2_0_0_wf
def dot_S8x1024x96_S8x96x16_S8x1024x16_2_1_1_2_0_0 : DotDims S8x1024x96 S8x96x16 S8x1024x16 where
  lhsContracting := [2]
  rhsContracting := [1]
  lhsNonContracting := [1]
  rhsNonContracting := [2]
  lhsBatch := [0]
  rhsBatch := [0]
  wf := dot_S8x1024x96_S8x96x16_S8x1024x16_2_1_1_2_0_0_wf

abbrev win0_0 : Pipeline.Window sig grid0 :=
  Pipeline.Window.ofSpec (Memref.whole main_v2) S8x16x64x16.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S8x16x96.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S8x96.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S8x16x8.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S8x64x8.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S8x96x16.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S8x16.size cc0_transform_6 reads0_6 false false 2 stage0_6 sem0_6
    hrank0 hreads0_6 hinb0_6 nbuf0_6 (Memref.isWhole_whole _) hwx0_6 hstage0_6

abbrev win0_7 : Pipeline.Window sig grid0 :=
  Pipeline.Window.ofSpec (Memref.whole main_arg7) S8x16.size cc0_transform_7 reads0_7 false false 2 stage0_7 sem0_7
    hrank0 hreads0_7 hinb0_7 nbuf0_7 (Memref.isWhole_whole _) hwx0_7 hstage0_7

abbrev win0_8 : Pipeline.Window sig grid0 :=
  Pipeline.Window.ofSpec (Memref.whole main_v3) S8x16x64x16.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

class Facts : Prop extends Facts₀ where

variable [Facts]
-- ==== ReferenceIdeal.lean ====
abbrev S4096x4096 : Shape := ⟨2, ![4096, 4096]⟩
abbrev S256x16x96 : Shape := ⟨3, ![256, 16, 96]⟩
abbrev S256x96 : Shape := ⟨2, ![256, 96]⟩
abbrev S256x64x8 : Shape := ⟨3, ![256, 64, 8]⟩
abbrev S256x96x16 : Shape := ⟨3, ![256, 96, 16]⟩
abbrev S256x16 : Shape := ⟨2, ![256, 16]⟩
abbrev S16x64x4x16x64x4 : Shape := ⟨6, ![16, 64, 4, 16, 64, 4]⟩
abbrev S16x16x64x64x4x4 : Shape := ⟨6, ![16, 16, 64, 64, 4, 4]⟩
abbrev S256x4096x16 : Shape := ⟨3, ![256, 4096, 16]⟩
abbrev S256x4096x96 : Shape := ⟨3, ![256, 4096, 96]⟩
abbrev S256x64x64x96 : Shape := ⟨4, ![256, 64, 64, 96]⟩
abbrev S256x1x1x96 : Shape := ⟨4, ![256, 1, 1, 96]⟩
abbrev S256x64x1x8 : Shape := ⟨4, ![256, 64, 1, 8]⟩
abbrev S_ : Shape := ⟨0, ![]⟩
abbrev S1 : Shape := ⟨1, ![1]⟩
abbrev S256x64x64x8 : Shape := ⟨4, ![256, 64, 64, 8]⟩
abbrev S256x1x64x8 : Shape := ⟨4, ![256, 1, 64, 8]⟩
abbrev S256x1x16 : Shape := ⟨3, ![256, 1, 16]⟩

abbrev nBuf : Space → Nat
  | .hbm => 53
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S256x16x96, .f32⟩
  | .hbm, ⟨2, _⟩ => ⟨S256x96, .f32⟩
  | .hbm, ⟨3, _⟩ => ⟨S256x64x8, .f32⟩
  | .hbm, ⟨4, _⟩ => ⟨S256x64x8, .f32⟩
  | .hbm, ⟨5, _⟩ => ⟨S256x96x16, .f32⟩
  | .hbm, ⟨6, _⟩ => ⟨S256x16, .f32⟩
  | .hbm, ⟨7, _⟩ => ⟨S256x16, .f32⟩
  | .hbm, ⟨8, _⟩ => ⟨S16x64x4x16x64x4, .f32⟩
  | .hbm, ⟨9, _⟩ => ⟨S16x16x64x64x4x4, .f32⟩
  | .hbm, ⟨10, _⟩ => ⟨S256x4096x16, .f32⟩
  | .hbm, ⟨11, _⟩ => ⟨S256x4096x96, .f32⟩
  | .hbm, ⟨12, _⟩ => ⟨S256x64x64x96, .f32⟩
  | .hbm, ⟨13, _⟩ => ⟨S256x1x1x96, .f32⟩
  | .hbm, ⟨14, _⟩ => ⟨S256x64x64x96, .f32⟩
  | .hbm, ⟨15, _⟩ => ⟨S256x64x64x96, .f32⟩
  | .hbm, ⟨16, _⟩ => ⟨S256x64x1x8, .f32⟩
  | .hbm, ⟨17, _⟩ => ⟨S_, .i32⟩
  | .hbm, ⟨18, _⟩ => ⟨S1, .i32⟩
  | .hbm, ⟨19, _⟩ => ⟨S256x64x64x8, .f32⟩
  | .hbm, ⟨20, _⟩ => ⟨S256x64x64x96, .f32⟩
  | .hbm, ⟨21, _⟩ => ⟨S256x1x64x8, .f32⟩
  | .hbm, ⟨22, _⟩ => ⟨S_, .i32⟩
  | .hbm, ⟨23, _⟩ => ⟨S1, .i32⟩
  | .hbm, ⟨24, _⟩ => ⟨S256x64x64x8, .f32⟩
  | .hbm, ⟨25, _⟩ => ⟨S256x64x64x96, .f32⟩
  | .hbm, ⟨26, _⟩ => ⟨S_, .f32⟩
  | .hbm, ⟨27, _⟩ => ⟨S256x64x64x96, .f32⟩
  | .hbm, ⟨28, _⟩ => ⟨S256x64x64x96, .i1⟩
  | .hbm, ⟨29, _⟩ => ⟨S_, .f32⟩
  | .hbm, ⟨30, _⟩ => ⟨S256x64x64x96, .f32⟩
  | .hbm, ⟨31, _⟩ => ⟨S256x64x64x96, .i1⟩
  | .hbm, ⟨32, _⟩ => ⟨S_, .f32⟩
  | .hbm, ⟨33, _⟩ => ⟨S_, .f32⟩
  | .hbm, ⟨34, _⟩ => ⟨S256x64x64x96, .f32⟩
  | .hbm, ⟨35, _⟩ => ⟨S256x64x64x96, .f32⟩
  | .hbm, ⟨36, _⟩ => ⟨S256x64x64x96, .f32⟩
  | .hbm, ⟨37, _⟩ => ⟨S_, .f32⟩
  | .hbm, ⟨38, _⟩ => ⟨S256x64x64x96, .f32⟩
  | .hbm, ⟨39, _⟩ => ⟨S256x64x64x96, .f32⟩
  | .hbm, ⟨40, _⟩ => ⟨S256x64x64x96, .f32⟩
  | .hbm, ⟨41, _⟩ => ⟨S256x4096x96, .f32⟩
  | .hbm, ⟨42, _⟩ => ⟨S256x4096x16, .f32⟩
  | .hbm, ⟨43, _⟩ => ⟨S256x1x16, .f32⟩
  | .hbm, ⟨44, _⟩ => ⟨S256x4096x16, .f32⟩
  | .hbm, ⟨45, _⟩ => ⟨S256x4096x16, .f32⟩
  | .hbm, ⟨46, _⟩ => ⟨S256x1x16, .f32⟩
  | .hbm, ⟨47, _⟩ => ⟨S256x4096x16, .f32⟩
  | .hbm, ⟨48, _⟩ => ⟨S256x4096x16, .f32⟩
  | .hbm, ⟨49, _⟩ => ⟨S256x4096x16, .f32⟩
  | .hbm, ⟨50, _⟩ => ⟨S16x16x64x64x4x4, .f32⟩
  | .hbm, ⟨51, _⟩ => ⟨S16x64x4x16x64x4, .f32⟩
  | .hbm, ⟨52, _⟩ => ⟨S4096x4096, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_c : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_c_0 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_call0_cst : Ref sig .tc := ⟨.hbm, 26, rfl⟩
abbrev main_call0_v0 : Ref sig .tc := ⟨.hbm, 27, rfl⟩
abbrev main_call0_v1 : Ref sig .tc := ⟨.hbm, 28, rfl⟩
abbrev main_call0_cst_0 : Ref sig .tc := ⟨.hbm, 29, rfl⟩
abbrev main_call0_v2 : Ref sig .tc := ⟨.hbm, 30, rfl⟩
abbrev main_call0_v3 : Ref sig .tc := ⟨.hbm, 31, rfl⟩
abbrev main_call0_cst_1 : Ref sig .tc := ⟨.hbm, 32, rfl⟩
abbrev main_call0_call0_v0 : Ref sig .tc := ⟨.hbm, 33, rfl⟩
abbrev main_call0_call0_v1 : Ref sig .tc := ⟨.hbm, 34, rfl⟩
abbrev main_call0_v4 : Ref sig .tc := ⟨.hbm, 35, rfl⟩
abbrev main_call0_v5 : Ref sig .tc := ⟨.hbm, 36, rfl⟩
abbrev main_call0_cst_2 : Ref sig .tc := ⟨.hbm, 37, rfl⟩
abbrev main_call0_v6 : Ref sig .tc := ⟨.hbm, 38, rfl⟩
abbrev main_call0_v7 : Ref sig .tc := ⟨.hbm, 39, rfl⟩
abbrev main_v16 : Ref sig .tc := ⟨.hbm, 40, rfl⟩
abbrev main_v17 : Ref sig .tc := ⟨.hbm, 41, rfl⟩
abbrev main_v18 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩

abbrev nD : Nat := 1
abbrev τ : Topo := Topo.v7x

variable {F : FTy → Type} [FloatOps F]

class Facts₀ : Prop where
  shapeCasts_S4096x4096_S16x64x4x16x64x4 : S4096x4096.ShapeCasts S16x64x4x16x64x4
  transposes_S16x64x4x16x64x4_S16x16x64x64x4x4_0_3_1_4_2_5 : S16x64x4x16x64x4.Transposes [0, 3, 1, 4, 2, 5] S16x16x64x64x4x4
  shapeCasts_S16x16x64x64x4x4_S256x4096x16 : S16x16x64x64x4x4.ShapeCasts S256x4096x16
  shapeCasts_S256x4096x96_S256x64x64x96 : S256x4096x96.ShapeCasts S256x64x64x96
  bcast_S256x96_S256x1x1x96_0_3 : S256x96.BroadcastsInDim S256x1x1x96 (![0, 3] : Fin 2 → Fin S256x1x1x96.rank)
  bcast_S256x1x1x96_S256x64x64x96_0_1_2_3 : S256x1x1x96.BroadcastsInDim S256x64x64x96 (![0, 1, 2, 3] : Fin 4 → Fin S256x64x64x96.rank)
  bcast_S256x64x8_S256x64x1x8_0_1_3 : S256x64x8.BroadcastsInDim S256x64x1x8 (![0, 1, 3] : Fin 3 → Fin S256x64x1x8.rank)
  bcast_S_S1 : S_.BroadcastsInDim S1 (![] : Fin 0 → Fin S1.rank)
  bcast_S256x64x1x8_S256x64x64x8_0_1_2_3 : S256x64x1x8.BroadcastsInDim S256x64x64x8 (![0, 1, 2, 3] : Fin 4 → Fin S256x64x64x8.rank)
  bcast_S256x64x8_S256x1x64x8_0_2_3 : S256x64x8.BroadcastsInDim S256x1x64x8 (![0, 2, 3] : Fin 3 → Fin S256x1x64x8.rank)
  bcast_S256x1x64x8_S256x64x64x8_0_1_2_3 : S256x1x64x8.BroadcastsInDim S256x64x64x8 (![0, 1, 2, 3] : Fin 4 → Fin S256x64x64x8.rank)
  bcast_S_S256x64x64x96 : S_.BroadcastsInDim S256x64x64x96 (![] : Fin 0 → Fin S256x64x64x96.rank)
  shapeCasts_S256x64x64x96_S256x4096x96 : S256x64x64x96.ShapeCasts S256x4096x96
  bcast_S256x16_S256x1x16_0_2 : S256x16.BroadcastsInDim S256x1x16 (![0, 2] : Fin 2 → Fin S256x1x16.rank)
  bcast_S256x1x16_S256x4096x16_0_1_2 : S256x1x16.BroadcastsInDim S256x4096x16 (![0, 1, 2] : Fin 3 → Fin S256x4096x16.rank)
  shapeCasts_S256x4096x16_S16x16x64x64x4x4 : S256x4096x16.ShapeCasts S16x16x64x64x4x4
  transposes_S16x16x64x64x4x4_S16x64x4x16x64x4_0_2_4_1_3_5 : S16x16x64x64x4x4.Transposes [0, 2, 4, 1, 3, 5] S16x64x4x16x64x4
  shapeCasts_S16x64x4x16x64x4_S4096x4096 : S16x64x4x16x64x4.ShapeCasts S4096x4096
  dot_S256x4096x16_S256x16x96_S256x4096x96_2_1_1_2_0_0_wf : DotDims.WF S256x4096x16 S256x16x96 S256x4096x96 [2] [1] [1] [2] [0] [0]
  scatter_S256x64x64x96_S1_S256x64x64x8_0123_n_3_0_wf : ScatterDims.WF S256x64x64x96 S1 S256x64x64x8 [0, 1, 2, 3] [] [3] 0
  dot_S256x4096x96_S256x96x16_S256x4096x16_2_1_1_2_0_0_wf : DotDims.WF S256x4096x96 S256x96x16 S256x4096x16 [2] [1] [1] [2] [0] [0]

variable [Facts₀]

def dot_S256x4096x16_S256x16x96_S256x4096x96_2_1_1_2_0_0 : DotDims S256x4096x16 S256x16x96 S256x4096x96 where
  lhsContracting := [2]
  rhsContracting := [1]
  lhsNonContracting := [1]
  rhsNonContracting := [2]
  lhsBatch := [0]
  rhsBatch := [0]
  wf := dot_S256x4096x16_S256x16x96_S256x4096x96_2_1_1_2_0_0_wf
def scatter_S256x64x64x96_S1_S256x64x64x8_0123_n_3_0 : ScatterDims S256x64x64x96 S1 S256x64x64x8 where
  updateWindowDims := [0, 1, 2, 3]
  insertedWindowDims := []
  scatterDimsToOperandDims := [3]
  indexVectorDim := 0
  wf := scatter_S256x64x64x96_S1_S256x64x64x8_0123_n_3_0_wf
def dot_S256x4096x96_S256x96x16_S256x4096x16_2_1_1_2_0_0 : DotDims S256x4096x96 S256x96x16 S256x4096x16 where
  lhsContracting := [2]
  rhsContracting := [1]
  lhsNonContracting := [1]
  rhsNonContracting := [2]
  lhsBatch := [0]
  rhsBatch := [0]
  wf := dot_S256x4096x96_S256x96x16_S256x4096x16_2_1_1_2_0_0_wf

class Facts : Prop extends Facts₀ where

variable [Facts]
-- ==== Proof.RefTerm.lean ====
/-
  The reference's result as one term of its arguments.

  `head` is the tiling of the 4096 × 4096 matrix: entry (256 b' + 4 r + i, 256 b'' + 4 c + j) goes to block
  16 b' + b'', tile 64 r + c, position 4 i + j. `core` is the network on the tiled array `Y` (256 blocks × 4096 tiles ×
  16): the first product with the block's `w1`, the bias, the two positional vectors added on hidden units 0–7 and
  8–15, the activation, the second product, the bias and the scaled residual. `tail` lays the tiles back.
-/
import proofs.«119823_j26594437497233_2_alg».proof.ReferenceIdeal

noncomputable section

namespace Cert.ReferenceIdeal.Hand

open Idealize.ShloMosaic Cert.ReferenceIdeal

variable {F : FTy → Type} [FloatOps F] [Facts]
open Facts₀ Facts

/-- The tiled array from the matrix. -/
def head (a0 : FVec F S4096x4096 .f32) : FVec F S256x4096x16 .f32 :=
  shapeCast S256x4096x16
    (transpose S16x16x64x64x4x4 [0, 3, 1, 4, 2, 5] (shapeCast S16x64x4x16x64x4 a0 shapeCasts_S4096x4096_S16x64x4x16x64x4)
      transposes_S16x64x4x16x64x4_S16x16x64x64x4x4_0_3_1_4_2_5)
    shapeCasts_S16x16x64x64x4x4_S256x4096x16

/-- The hidden units before the activation, as a 256 × 64 × 64 × 96 array. -/
def hidden (Y : FVec F S256x4096x16 .f32) (a1 : FVec F S256x16x96 .f32) (a2 : FVec F S256x96 .f32)
    (a3 a4 : FVec F S256x64x8 .f32) : FVec F S256x64x64x96 .f32 :=
  Host.scatter scatter_S256x64x64x96_S1_S256x64x64x8_0123_n_3_0 FloatOps.addf
    (Host.scatter scatter_S256x64x64x96_S1_S256x64x64x8_0123_n_3_0 FloatOps.addf
      (addf (shapeCast S256x64x64x96 (Host.dotGeneral dot_S256x4096x16_S256x16x96_S256x4096x96_2_1_1_2_0_0 none Y a1) shapeCasts_S256x4096x96_S256x64x64x96)
        (broadcastInDim S256x64x64x96 ![0, 1, 2, 3] bcast_S256x1x1x96_S256x64x64x96_0_1_2_3 (broadcastInDim S256x1x1x96 ![0, 3] bcast_S256x96_S256x1x1x96_0_3 a2)))
      (broadcastInDim S1 ![] bcast_S_S1 (constantI S_ 32 0#32))
      (broadcastInDim S256x64x64x8 ![0, 1, 2, 3] bcast_S256x64x1x8_S256x64x64x8_0_1_2_3 (broadcastInDim S256x64x1x8 ![0, 1, 3] bcast_S256x64x8_S256x64x1x8_0_1_3 a3)))
    (broadcastInDim S1 ![] bcast_S_S1 (constantI S_ 32 8#32))
    (broadcastInDim S256x64x64x8 ![0, 1, 2, 3] bcast_S256x1x64x8_S256x64x64x8_0_1_2_3 (broadcastInDim S256x1x64x8 ![0, 2, 3] bcast_S256x64x8_S256x1x64x8_0_2_3 a4))

/-- The activation as the reference spells it: `x` where `x > 0`, elsewhere `1 · expm1` of `x` with the positive entries
    replaced by zero. -/
def elu (x : FVec F S256x64x64x96 .f32) : FVec F S256x64x64x96 .f32 :=
  select (cmpf .ogt x (broadcastInDim S256x64x64x96 ![] bcast_S_S256x64x64x96 (constant S_ .f32 0x00000000#32))) x
    (mulf (broadcastInDim S256x64x64x96 ![] bcast_S_S256x64x64x96 (constant S_ .f32 0x3F800000#32))
      (Host.expm1 (select (cmpf .ogt x (broadcastInDim S256x64x64x96 ![] bcast_S_S256x64x64x96 (constant S_ .f32 0x00000000#32)))
        (broadcastInDim S256x64x64x96 ![] bcast_S_S256x64x64x96 (id (constant S_ .f32 0x00000000#32))) x)))

/-- The network on the tiled array. -/
def core (Y : FVec F S256x4096x16 .f32) (a1 : FVec F S256x16x96 .f32) (a2 : FVec F S256x96 .f32)
    (a3 a4 : FVec F S256x64x8 .f32) (a5 : FVec F S256x96x16 .f32) (a6 a7 : FVec F S256x16 .f32) : FVec F S256x4096x16 .f32 :=
  addf
    (addf
      (Host.dotGeneral dot_S256x4096x96_S256x96x16_S256x4096x16_2_1_1_2_0_0 none
        (shapeCast S256x4096x96 (elu (hidden Y a1 a2 a3 a4)) shapeCasts_S256x64x64x96_S256x4096x96) a5)
      (broadcastInDim S256x4096x16 ![0, 1, 2] bcast_S256x1x16_S256x4096x16_0_1_2 (broadcastInDim S256x1x16 ![0, 2] bcast_S256x16_S256x1x16_0_2 a6)))
    (mulf Y (broadcastInDim S256x4096x16 ![0, 1, 2] bcast_S256x1x16_S256x4096x16_0_1_2 (broadcastInDim S256x1x16 ![0, 2] bcast_S256x16_S256x1x16_0_2 a7)))

/-- The tiles laid back as a matrix. -/
def tail (Z : FVec F S256x4096x16 .f32) : FVec F S4096x4096 .f32 :=
  shapeCast S4096x4096
    (transpose S16x64x4x16x64x4 [0, 2, 4, 1, 3, 5] (shapeCast S16x16x64x64x4x4 Z shapeCasts_S256x4096x16_S16x16x64x64x4x4)
      transposes_S16x16x64x64x4x4_S16x64x4x16x64x4_0_2_4_1_3_5)
    shapeCasts_S16x64x4x16x64x4_S4096x4096

/-- The reference's result from its eight arguments. -/
def result (a0 : FVec F S4096x4096 .f32) (a1 : FVec F S256x16x96 .f32) (a2 : FVec F S256x96 .f32)
    (a3 a4 : FVec F S256x64x8 .f32) (a5 : FVec F S256x96x16 .f32) (a6 a7 : FVec F S256x16 .f32) : FVec F S4096x4096 .f32 :=
  tail (core (head a0) a1 a2 a3 a4 a5 a6 a7)

end Cert.ReferenceIdeal.Hand

end
-- ==== Proof.RefRun.lean ====
/-
  The reference's run: every weakly fair execution of its @main terminates with the result buffer at `result` of the
  eight argument arrays, which end unchanged.

  @main is a straight line of forty-five operations once its call of @elu, and @elu's two calls of the selects `_where`
  and `_where_0`, are unfolded at their call sites. Each operation writes one buffer of its own, so what a buffer holds at
  the end is the operations' functions composed along the data flow back to the arguments, and the eight argument
  buffers, which no operation writes, hold what they held. The line is read in three parts: the eighteen operations that
  build the hidden units, the activation's fifteen, and the twelve of the second product, the residual and the
  tiles laid back; `result` is the three parts' functions composed.
-/
import proofs.«119823_j26594437497233_2_alg».proof.Proof.RefTerm
import proofs.«119823_j26594437497233_2_alg».proof.Proof.Gen.ReferenceIdeal
import Idealize.ShloMosaic.Lib.StableHlo.Run
import Idealize.ShloMosaic.PureOps.Ideal

noncomputable section

namespace Cert.ReferenceIdeal.Hand

open Idealize.ShloMosaic Idealize.SL.Sem Cert.ReferenceIdeal

variable [Facts]
open Facts₀ Facts

section Generic

variable {F : FTy → Type} [FloatOps F]

/-- The first eighteen operations of @main: the tiling of the matrix (two reshapes around a transpose), the first product and
    its reshape, the bias broadcast and added, and the two positional vectors, each broadcast and scattered (added) onto its
    eight hidden units. They end at the hidden units' buffer `main_v15`. -/
abbrev opsA : List (HloOp τ sig (Elt F)) :=
  [
    StableHlo.reshape main_arg0 main_v0 rfl shapeCasts_S4096x4096_S16x64x4x16x64x4,
    StableHlo.unary main_v0 main_v1 ((transpose S16x16x64x64x4x4 [0, 3, 1, 4, 2, 5] · transposes_S16x64x4x16x64x4_S16x16x64x64x4x4_0_3_1_4_2_5) : (⟨S16x64x4x16x64x4, .f32⟩ : BufTy).Contents (Elt F) → (⟨S16x16x64x64x4x4, .f32⟩ : BufTy).Contents (Elt F)),
    StableHlo.reshape main_v1 main_v2 rfl shapeCasts_S16x16x64x64x4x4_S256x4096x16,
    StableHlo.binary main_v2 main_arg1 main_v3 ((fun l r => Host.dotGeneral dot_S256x4096x16_S256x16x96_S256x4096x96_2_1_1_2_0_0 none l r) : (⟨S256x4096x16, .f32⟩ : BufTy).Contents (Elt F) → (⟨S256x16x96, .f32⟩ : BufTy).Contents (Elt F) → (⟨S256x4096x96, .f32⟩ : BufTy).Contents (Elt F)),
    StableHlo.reshape main_v3 main_v4 rfl shapeCasts_S256x4096x96_S256x64x64x96,
    StableHlo.unary main_arg2 main_v5 (broadcastInDim S256x1x1x96 ![0, 3] bcast_S256x96_S256x1x1x96_0_3 : (⟨S256x96, .f32⟩ : BufTy).Contents (Elt F) → (⟨S256x1x1x96, .f32⟩ : BufTy).Contents (Elt F)),
    StableHlo.unary main_v5 main_v6 (broadcastInDim S256x64x64x96 ![0, 1, 2, 3] bcast_S256x1x1x96_S256x64x64x96_0_1_2_3 : (⟨S256x1x1x96, .f32⟩ : BufTy).Contents (Elt F) → (⟨S256x64x64x96, .f32⟩ : BufTy).Contents (Elt F)),
    StableHlo.binary main_v4 main_v6 main_v7 (addf : (⟨S256x64x64x96, .f32⟩ : BufTy).Contents (Elt F) → (⟨S256x64x64x96, .f32⟩ : BufTy).Contents (Elt F) → (⟨S256x64x64x96, .f32⟩ : BufTy).Contents (Elt F)),
    StableHlo.unary main_arg3 main_v8 (broadcastInDim S256x64x1x8 ![0, 1, 3] bcast_S256x64x8_S256x64x1x8_0_1_3 : (⟨S256x64x8, .f32⟩ : BufTy).Contents (Elt F) → (⟨S256x64x1x8, .f32⟩ : BufTy).Contents (Elt F)),
    StableHlo.nullary main_c (constantI S_ 32 0#32),
    StableHlo.unary main_c main_v9 (broadcastInDim S1 ![] bcast_S_S1 : (⟨S_, .i32⟩ : BufTy).Contents (Elt F) → (⟨S1, .i32⟩ : BufTy).Contents (Elt F)),
    StableHlo.unary main_v8 main_v10 (broadcastInDim S256x64x64x8 ![0, 1, 2, 3] bcast_S256x64x1x8_S256x64x64x8_0_1_2_3 : (⟨S256x64x1x8, .f32⟩ : BufTy).Contents (Elt F) → (⟨S256x64x64x8, .f32⟩ : BufTy).Contents (Elt F)),
    StableHlo.ternary main_v7 main_v9 main_v10 main_v11 ((fun x i u => Host.scatter scatter_S256x64x64x96_S1_S256x64x64x8_0123_n_3_0 FloatOps.addf x i u) : (⟨S256x64x64x96, .f32⟩ : BufTy).Contents (Elt F) → (⟨S1, .i32⟩ : BufTy).Contents (Elt F) → (⟨S256x64x64x8, .f32⟩ : BufTy).Contents (Elt F) → (⟨S256x64x64x96, .f32⟩ : BufTy).Contents (Elt F)),
    StableHlo.unary main_arg4 main_v12 (broadcastInDim S256x1x64x8 ![0, 2, 3] bcast_S256x64x8_S256x1x64x8_0_2_3 : (⟨S256x64x8, .f32⟩ : BufTy).Contents (Elt F) → (⟨S256x1x64x8, .f32⟩ : BufTy).Contents (Elt F)),
    StableHlo.nullary main_c_0 (constantI S_ 32 8#32),
    StableHlo.unary main_c_0 main_v13 (broadcastInDim S1 ![] bcast_S_S1 : (⟨S_, .i32⟩ : BufTy).Contents (Elt F) → (⟨S1, .i32⟩ : BufTy).Contents (Elt F)),
    StableHlo.unary main_v12 main_v14 (broadcastInDim S256x64x64x8 ![0, 1, 2, 3] bcast_S256x1x64x8_S256x64x64x8_0_1_2_3 : (⟨S256x1x64x8, .f32⟩ : BufTy).Contents (Elt F) → (⟨S256x64x64x8, .f32⟩ : BufTy).Contents (Elt F)),
    StableHlo.ternary main_v11 main_v13 main_v14 main_v15 ((fun x i u => Host.scatter scatter_S256x64x64x96_S1_S256x64x64x8_0123_n_3_0 FloatOps.addf x i u) : (⟨S256x64x64x96, .f32⟩ : BufTy).Contents (Elt F) → (⟨S1, .i32⟩ : BufTy).Contents (Elt F) → (⟨S256x64x64x8, .f32⟩ : BufTy).Contents (Elt F) → (⟨S256x64x64x96, .f32⟩ : BufTy).Contents (Elt F)) ]

/-- The fifteen operations of @main's call of @elu, unfolded at the call site into the buffers of the record `main_call0`
    (seven of @elu's own, the three of its call of `_where` into `main_call0.call0`, four more of its own, the one of
    its call of `_where_0` into `main_call0.call1`): the argument is the hidden units' buffer `main_v15`, the result the
    buffer `main_v16`. -/
abbrev opsE : List (HloOp τ sig (Elt F)) :=
  [
    StableHlo.TRef.nullary main_call0.cst (constant S_ .f32 0x00000000#32),
    StableHlo.TRef.unary main_call0.cst main_call0.v0 (broadcastInDim S256x64x64x96 ![] bcast_S_S256x64x64x96),
    StableHlo.TRef.binary (.of main_v15) main_call0.v0 main_call0.v1 (cmpf .ogt),
    StableHlo.TRef.nullary main_call0.cst_0 (constant S_ .f32 0x00000000#32),
    StableHlo.TRef.unary main_call0.cst_0 main_call0.v2 (broadcastInDim S256x64x64x96 ![] bcast_S_S256x64x64x96),
    StableHlo.TRef.binary (.of main_v15) main_call0.v2 main_call0.v3 (cmpf .ogt),
    StableHlo.TRef.nullary main_call0.cst_1 (constant S_ .f32 0x00000000#32),
    StableHlo.TRef.unary main_call0.cst_1 main_call0.call0.v0 id,
    StableHlo.TRef.unary main_call0.call0.v0 main_call0.call0.v1 (broadcastInDim S256x64x64x96 ![] bcast_S_S256x64x64x96),
    StableHlo.TRef.ternary main_call0.v3 main_call0.call0.v1 (.of main_v15) main_call0.call0.v2 select,
    StableHlo.TRef.unary main_call0.call0.v2 main_call0.v5 Host.expm1,
    StableHlo.TRef.nullary main_call0.cst_2 (constant S_ .f32 0x3F800000#32),
    StableHlo.TRef.unary main_call0.cst_2 main_call0.v6 (broadcastInDim S256x64x64x96 ![] bcast_S_S256x64x64x96),
    StableHlo.TRef.binary main_call0.v6 main_call0.v5 main_call0.v7 mulf,
    StableHlo.TRef.ternary main_call0.v1 (.of main_v15) main_call0.v7 main_call0.call1.v0 select ]

/-- The last twelve operations of @main: the activated units reshaped, the second product, the bias, the residual scaled
    and added, and the tiles laid back as a matrix (two reshapes around a transpose). They end at `main_v28`. -/
abbrev opsT : List (HloOp τ sig (Elt F)) :=
  [
    StableHlo.reshape main_v16 main_v17 rfl shapeCasts_S256x64x64x96_S256x4096x96,
    StableHlo.binary main_v17 main_arg5 main_v18 ((fun l r => Host.dotGeneral dot_S256x4096x96_S256x96x16_S256x4096x16_2_1_1_2_0_0 none l r) : (⟨S256x4096x96, .f32⟩ : BufTy).Contents (Elt F) → (⟨S256x96x16, .f32⟩ : BufTy).Contents (Elt F) → (⟨S256x4096x16, .f32⟩ : BufTy).Contents (Elt F)),
    StableHlo.unary main_arg6 main_v19 (broadcastInDim S256x1x16 ![0, 2] bcast_S256x16_S256x1x16_0_2 : (⟨S256x16, .f32⟩ : BufTy).Contents (Elt F) → (⟨S256x1x16, .f32⟩ : BufTy).Contents (Elt F)),
    StableHlo.unary main_v19 main_v20 (broadcastInDim S256x4096x16 ![0, 1, 2] bcast_S256x1x16_S256x4096x16_0_1_2 : (⟨S256x1x16, .f32⟩ : BufTy).Contents (Elt F) → (⟨S256x4096x16, .f32⟩ : BufTy).Contents (Elt F)),
    StableHlo.binary main_v18 main_v20 main_v21 (addf : (⟨S256x4096x16, .f32⟩ : BufTy).Contents (Elt F) → (⟨S256x4096x16, .f32⟩ : BufTy).Contents (Elt F) → (⟨S256x4096x16, .f32⟩ : BufTy).Contents (Elt F)),
    StableHlo.unary main_arg7 main_v22 (broadcastInDim S256x1x16 ![0, 2] bcast_S256x16_S256x1x16_0_2 : (⟨S256x16, .f32⟩ : BufTy).Contents (Elt F) → (⟨S256x1x16, .f32⟩ : BufTy).Contents (Elt F)),
    StableHlo.unary main_v22 main_v23 (broadcastInDim S256x4096x16 ![0, 1, 2] bcast_S256x1x16_S256x4096x16_0_1_2 : (⟨S256x1x16, .f32⟩ : BufTy).Contents (Elt F) → (⟨S256x4096x16, .f32⟩ : BufTy).Contents (Elt F)),
    StableHlo.binary main_v2 main_v23 main_v24 (mulf : (⟨S256x4096x16, .f32⟩ : BufTy).Contents (Elt F) → (⟨S256x4096x16, .f32⟩ : BufTy).Contents (Elt F) → (⟨S256x4096x16, .f32⟩ : BufTy).Contents (Elt F)),
    StableHlo.binary main_v21 main_v24 main_v25 (addf : (⟨S256x4096x16, .f32⟩ : BufTy).Contents (Elt F) → (⟨S256x4096x16, .f32⟩ : BufTy).Contents (Elt F) → (⟨S256x4096x16, .f32⟩ : BufTy).Contents (Elt F)),
    StableHlo.reshape main_v25 main_v26 rfl shapeCasts_S256x4096x16_S16x16x64x64x4x4,
    StableHlo.unary main_v26 main_v27 ((transpose S16x64x4x16x64x4 [0, 2, 4, 1, 3, 5] · transposes_S16x16x64x64x4x4_S16x64x4x16x64x4_0_2_4_1_3_5) : (⟨S16x16x64x64x4x4, .f32⟩ : BufTy).Contents (Elt F) → (⟨S16x64x4x16x64x4, .f32⟩ : BufTy).Contents (Elt F)),
    StableHlo.reshape main_v27 main_v28 rfl shapeCasts_S16x64x4x16x64x4_S4096x4096 ]

/-- @main's forty-five operations in order, the three calls unfolded. -/
abbrev ops : List (HloOp τ sig (Elt F)) := opsA ++ (opsE ++ opsT)

-- forty-five binds re-associated: the rewrite under the chain recurses once per statement
set_option maxRecDepth 4096 in
/-- @main is that straight line: the three functions' definitions unfolded at their calls, both sides are one chain of
    operation steps once sequencing is reassociated. -/
theorem main_eq (c : Dev nD) : main (F := F) c = StableHlo.seq ops := by
  simp only [main, fn_elu.body, fn_where.body, fn_where_0.body, ops, opsA, opsE, opsT, List.cons_append, List.nil_append,
    StableHlo.seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

open StableHlo in
/-- Every operation touches buffers of the TensorCore's references only. -/
theorem ops_sub : (ops : List (HloOp τ sig (Elt F))).Forall fun op => op.bufs ⊆ StableHlo.tcRefs τ sig :=
  ⟨reshape_bufs_sub .., unary_bufs_sub .., reshape_bufs_sub .., binary_bufs_sub .., reshape_bufs_sub .., unary_bufs_sub ..,
    unary_bufs_sub .., binary_bufs_sub .., unary_bufs_sub .., nullary_bufs_sub .., unary_bufs_sub .., unary_bufs_sub ..,
    ternary_bufs_sub .., unary_bufs_sub .., nullary_bufs_sub .., unary_bufs_sub .., unary_bufs_sub .., ternary_bufs_sub ..,
    nullary_bufs_sub .., unary_bufs_sub .., binary_bufs_sub .., nullary_bufs_sub .., unary_bufs_sub .., binary_bufs_sub ..,
    nullary_bufs_sub .., unary_bufs_sub .., unary_bufs_sub .., ternary_bufs_sub .., unary_bufs_sub .., nullary_bufs_sub ..,
    unary_bufs_sub .., binary_bufs_sub .., ternary_bufs_sub ..,
    reshape_bufs_sub .., binary_bufs_sub .., unary_bufs_sub .., unary_bufs_sub .., binary_bufs_sub .., unary_bufs_sub ..,
    unary_bufs_sub .., binary_bufs_sub .., binary_bufs_sub .., reshape_bufs_sub .., unary_bufs_sub .., reshape_bufs_sub ..⟩

/-- The contents after two lines run one after the other: the second line's, from the first line's. -/
private theorem after_append (l₁ l₂ : List (HloOp τ sig (Elt F))) (V : Valuation τ sig (Elt F)) :
    StableHlo.after (l₁ ++ l₂) V = StableHlo.after l₂ (StableHlo.after l₁ V) := by
  induction l₁ generalizing V with
  | nil => rfl
  | cons op l ih => rw [List.cons_append, StableHlo.after_cons, StableHlo.after_cons, ih]

/-! What each of the three lines leaves at the buffers the next one reads. Each operation's result at its own buffer is its
function of its operands' contents, at any other buffer what was there; the products, the scatters, the exponential and
the layout changes stay folded: no equation here looks inside them. The three lines are read separately so that the
hidden units' array, which the activation reads three times, is a variable where the activation is read. -/

open StableHlo in
attribute [local irreducible] Host.scatter Host.expm1 transpose shapeCast in
/-- After the first line the hidden units' buffer holds `hidden` of the tiled array and the arguments. -/
theorem opsA_v15 (V : Valuation τ sig (Elt F)) :
    StableHlo.after opsA V (Proc.devRef .tc main_v15)
      = hidden (head (V (Proc.devRef .tc main_arg0))) (V (Proc.devRef .tc main_arg1)) (V (Proc.devRef .tc main_arg2))
          (V (Proc.devRef .tc main_arg3)) (V (Proc.devRef .tc main_arg4)) := by
  after_results_simp
  rfl

open StableHlo in
attribute [local irreducible] Host.scatter Host.expm1 transpose shapeCast in
/-- After the first line the tiled array's buffer holds `head` of the matrix. -/
theorem opsA_v2 (V : Valuation τ sig (Elt F)) :
    StableHlo.after opsA V (Proc.devRef .tc main_v2) = head (V (Proc.devRef .tc main_arg0)) := by
  after_results_simp
  rfl

open StableHlo in
/-- The first line writes none of the last three arguments. -/
theorem opsA_keeps (V : Valuation τ sig (Elt F)) :
    StableHlo.after opsA V (Proc.devRef .tc main_arg5) = V (Proc.devRef .tc main_arg5)
    ∧ StableHlo.after opsA V (Proc.devRef .tc main_arg6) = V (Proc.devRef .tc main_arg6)
    ∧ StableHlo.after opsA V (Proc.devRef .tc main_arg7) = V (Proc.devRef .tc main_arg7) := by
  refine ⟨?_, ?_, ?_⟩ <;> after_results_simp

open StableHlo in
attribute [local irreducible] Host.scatter Host.expm1 transpose shapeCast in
/-- After the activation's line its result buffer holds `elu` of the hidden units' buffer. -/
theorem opsE_v16 (W : Valuation τ sig (Elt F)) :
    StableHlo.after opsE W (Proc.devRef .tc main_v16) = elu (W (Proc.devRef .tc main_v15)) := by
  after_results_simp
  rfl

open StableHlo in
/-- The activation's line writes neither the tiled array's buffer nor any of the last three arguments. -/
theorem opsE_keeps (W : Valuation τ sig (Elt F)) :
    StableHlo.after opsE W (Proc.devRef .tc main_v2) = W (Proc.devRef .tc main_v2)
    ∧ StableHlo.after opsE W (Proc.devRef .tc main_arg5) = W (Proc.devRef .tc main_arg5)
    ∧ StableHlo.after opsE W (Proc.devRef .tc main_arg6) = W (Proc.devRef .tc main_arg6)
    ∧ StableHlo.after opsE W (Proc.devRef .tc main_arg7) = W (Proc.devRef .tc main_arg7) := by
  refine ⟨?_, ?_, ?_, ?_⟩ <;> after_results_simp

open StableHlo in
attribute [local irreducible] Host.scatter Host.expm1 transpose shapeCast in
/-- After the last line the result buffer holds the tiles laid back of: the second product of the activated units, the bias
    and the scaled residual of the tiled array. -/
theorem opsT_v28 (W : Valuation τ sig (Elt F)) :
    StableHlo.after opsT W (Proc.devRef .tc main_v28)
      = tail (addf
          (addf
            (Host.dotGeneral dot_S256x4096x96_S256x96x16_S256x4096x16_2_1_1_2_0_0 none
              (shapeCast S256x4096x96 (W (Proc.devRef .tc main_v16)) shapeCasts_S256x64x64x96_S256x4096x96)
              (W (Proc.devRef .tc main_arg5)))
            (broadcastInDim S256x4096x16 ![0, 1, 2] bcast_S256x1x16_S256x4096x16_0_1_2
              (broadcastInDim S256x1x16 ![0, 2] bcast_S256x16_S256x1x16_0_2 (W (Proc.devRef .tc main_arg6)))))
          (mulf (W (Proc.devRef .tc main_v2))
            (broadcastInDim S256x4096x16 ![0, 1, 2] bcast_S256x1x16_S256x4096x16_0_1_2
              (broadcastInDim S256x1x16 ![0, 2] bcast_S256x16_S256x1x16_0_2 (W (Proc.devRef .tc main_arg7)))))) := by
  after_results_simp
  rfl

/-- What the result buffer holds after the whole line: the three lines' facts chained, which is `result` spelt out. -/
theorem out_eq (V : Valuation τ sig (Elt F)) :
    StableHlo.after ops V (Proc.devRef .tc main_v28)
      = result (V (Proc.devRef .tc main_arg0)) (V (Proc.devRef .tc main_arg1)) (V (Proc.devRef .tc main_arg2))
          (V (Proc.devRef .tc main_arg3)) (V (Proc.devRef .tc main_arg4)) (V (Proc.devRef .tc main_arg5))
          (V (Proc.devRef .tc main_arg6)) (V (Proc.devRef .tc main_arg7)) := by
  rw [show (ops : List (HloOp τ sig (Elt F))) = opsA ++ (opsE ++ opsT) from rfl, after_append, after_append,
    opsT_v28, opsE_v16, (opsE_keeps _).1, (opsE_keeps _).2.1, (opsE_keeps _).2.2.1, (opsE_keeps _).2.2.2,
    opsA_v15, opsA_v2, (opsA_keeps V).1, (opsA_keeps V).2.1, (opsA_keeps V).2.2]
  rfl

open StableHlo in
/-- No operation writes an argument's buffer. -/
theorem args_eq (V : Valuation τ sig (Elt F)) :
    StableHlo.after ops V (Proc.devRef .tc main_arg0) = V (Proc.devRef .tc main_arg0)
    ∧ StableHlo.after ops V (Proc.devRef .tc main_arg1) = V (Proc.devRef .tc main_arg1)
    ∧ StableHlo.after ops V (Proc.devRef .tc main_arg2) = V (Proc.devRef .tc main_arg2)
    ∧ StableHlo.after ops V (Proc.devRef .tc main_arg3) = V (Proc.devRef .tc main_arg3)
    ∧ StableHlo.after ops V (Proc.devRef .tc main_arg4) = V (Proc.devRef .tc main_arg4)
    ∧ StableHlo.after ops V (Proc.devRef .tc main_arg5) = V (Proc.devRef .tc main_arg5)
    ∧ StableHlo.after ops V (Proc.devRef .tc main_arg6) = V (Proc.devRef .tc main_arg6)
    ∧ StableHlo.after ops V (Proc.devRef .tc main_arg7) = V (Proc.devRef .tc main_arg7) := by
  simp only [ops, opsA, opsE, opsT, List.cons_append, List.nil_append]
  refine ⟨?_, ?_, ?_, ?_, ?_, ?_, ?_, ?_⟩ <;> after_results_simp

/-- On every device, for any float values, from any memory with zero counters: every weakly fair execution of @main
    terminates with every TensorCore buffer at the operations' fold over the launch contents. -/
theorem run_all (m : (ℓ : Loc nD τ sig) → Buf (Elt F) ℓ) (ρ : Dev nD → PrngReg) :
    θ_run (defs (F := F)) (onTc (τ := τ) (main (F := F))) ⟨m, fun _ => 0, ρ⟩ fun r =>
      ∀ (c : Dev nD) (b : Ref sig .tc),
        r.2.mem ((c.tc : Thread nD τ).loc b) = StableHlo.after ops (StableHlo.launchContents m c) (Proc.devRef .tc b) :=
  StableHlo.run_seq scopedRefs_eq scopedSems_eq defs main (fun _ => ops) main_eq (fun _ => ops_sub) m ρ

end Generic

theorem run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v28)
          = result (F := Ideal) (m ((c.tc : Thread nD τ).loc main_arg0)) (m ((c.tc : Thread nD τ).loc main_arg1))
              (m ((c.tc : Thread nD τ).loc main_arg2)) (m ((c.tc : Thread nD τ).loc main_arg3))
              (m ((c.tc : Thread nD τ).loc main_arg4)) (m ((c.tc : Thread nD τ).loc main_arg5))
              (m ((c.tc : Thread nD τ).loc main_arg6)) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run (defs (F := Ideal)) _ _).mono
    (fun _ h c =>
      have a := args_eq (F := Ideal) (StableHlo.launchContents m c)
      ⟨(h c main_v28).trans (out_eq (F := Ideal) (StableHlo.launchContents m c)),
        (h c main_arg0).trans a.1, (h c main_arg1).trans a.2.1, (h c main_arg2).trans a.2.2.1,
        (h c main_arg3).trans a.2.2.2.1, (h c main_arg4).trans a.2.2.2.2.1, (h c main_arg5).trans a.2.2.2.2.2.1,
        (h c main_arg6).trans a.2.2.2.2.2.2.1, (h c main_arg7).trans a.2.2.2.2.2.2.2⟩)
    (run_all (F := Ideal) m ρ)

end Cert.ReferenceIdeal.Hand

end
-- ==== Proof.KerRun.lean ====
/-
  The kernel program's run around its region.

  Before the region the matrix is tiled (`head`: entry (256 b' + 4 r + i, 256 b'' + 4 c + j) goes to block 16 b' + b'',
  tile (r, c), position 4 i + j); after it the tiles are laid back (`tail`). The run ends with the result buffer at
  `tail` of the region's output array and the eight argument arrays unchanged.
-/
import proofs.«119823_j26594437497233_2_alg».proof.Proof.Gen.KernelIdeal.Frame
import Idealize.ShloMosaic.Lib.StableHlo.Run
import Idealize.ShloMosaic.Lib.Pipeline.Value
import Idealize.ShloMosaic.PureOps.Ideal

noncomputable section

namespace Cert.KernelIdeal.Hand

open Idealize.ShloMosaic Idealize.ShloMosaic.TcCoe Idealize.SL.Sem Cert.KernelIdeal Cert.KernelIdeal.Gen

open Facts₀ Facts

variable {F : FTy → Type} [FloatOps F]

/-- The tiled array from the matrix. -/
def head (a0 : FVec F S4096x4096 .f32) : FVec F S256x64x64x16 .f32 :=
  shapeCast S256x64x64x16
    (transpose S16x16x64x64x4x4 [0, 3, 1, 4, 2, 5] (shapeCast S16x64x4x16x64x4 a0 Facts₀.shapeCasts_S4096x4096_S16x64x4x16x64x4)
      Facts₀.transposes_S16x64x4x16x64x4_S16x16x64x64x4x4_0_3_1_4_2_5)
    Facts₀.shapeCasts_S16x16x64x64x4x4_S256x64x64x16

/-- The tiles laid back as a matrix. -/
def tail (Z : FVec F S256x64x64x16 .f32) : FVec F S4096x4096 .f32 :=
  shapeCast S4096x4096
    (transpose S16x64x4x16x64x4 [0, 2, 4, 1, 3, 5] (shapeCast S16x16x64x64x4x4 Z Facts₀.shapeCasts_S256x64x64x16_S16x16x64x64x4x4)
      Facts₀.transposes_S16x16x64x64x4x4_S16x64x4x16x64x4_0_2_4_1_3_5)
    Facts₀.shapeCasts_S16x64x4x16x64x4_S4096x4096

variable (m : (ℓ : Loc nD τ sig) → Buf (Elt Ideal) ℓ) (ρ : Dev nD → PrngReg)

/-- The region finds the tiled array in its first window's buffer. -/
theorem V_main_v2 (c : Dev nD) :
    (V m c main_v2 : FVec Ideal S256x64x64x16 .f32) = head (F := Ideal) (m ((c : Thread nD τ).loc main_arg0)) := by
  -- the three operations before the region, each read at its own result buffer
  show StableHlo.after hostOps0 (fun b => m (c, b)) (Proc.devRef .tc main_v2) = _
  after_results
  rfl

/-- The run: the result buffer ends at `tail` of the region's output array, the arguments unchanged. -/
theorem run_arr : θ_run (defs (F := Ideal)) (onTc (τ := τ) (main (F := Ideal))) ⟨m, fun _ => 0, ρ⟩ (fun r => ∀ c : Dev nD,
      r.2.mem ((c.tc : Thread nD τ).loc main_v6) = tail (F := Ideal) ((dats m 0 c).arrAt 8 cfg0.N)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) := by
  -- the arguments: the first bypasses the region and no operation after it writes it; the others are input arrays of
  -- the region, which leaves an input array as it found it, and no operation before the region writes them
  refine (θ_run defs _ _).mono (fun r h c => ⟨?_,
      (((h c).2 main_arg0 (Pipeline.mem_restRefs_of main_arg0 (by decide) (by decide))).trans (W_main_arg0 m (dats m) c)),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c))),
      ((h c).1 4).trans (((dats m 0 c).arrAt_in 4 rfl _).trans ((A_eq m c 4).trans (V_main_arg4 m c))),
      ((h c).1 5).trans (((dats m 0 c).arrAt_in 5 rfl _).trans ((A_eq m c 5).trans (V_main_arg5 m c))),
      ((h c).1 6).trans (((dats m 0 c).arrAt_in 6 rfl _).trans ((A_eq m c 6).trans (V_main_arg6 m c))),
      ((h c).1 7).trans (((dats m 0 c).arrAt_in 7 rfl _).trans ((A_eq m c 7).trans (V_main_arg7 m c)))⟩) (run_main m ρ)
  -- the result: the three operations after the region, each read at its own result buffer, from the region's exit contents
  refine ((h c).2 main_v6 (Pipeline.mem_restRefs_of main_v6 (by decide) (by decide))).trans ?_
  unfold Pipeline.afterTail₀
  show StableHlo.after hostOps1 _ (Proc.devRef .tc main_v6) = _
  after_results
  -- the first of them reads the region's output array
  have e : Pipeline.withArrays (cfgs 0).spec c (V0 m c) (fun w => (dats m 0 c).arrAt w (cfgs 0).N) (Proc.tc.devRef main_v3)
      = (dats m 0 c).arrAt 8 cfg0.N := Pipeline.withArrays_arr spec0 launch0.win.arr_inj c _ _ 8
  rw [e]
  generalize (dats m 0 c).arrAt 8 cfg0.N = Z
  rfl

end Cert.KernelIdeal.Hand

end
-- ==== Proof.HyperSpec.lean ====
/-
  The network applied to one 4×4 tile, over the extended reals.

  A tile is sixteen numbers `X k`. With the weights of the tile's block — `w1` (16 × 96), `b1` (96), `w2` (96 × 16),
  `b2`, `sc` (16) — and the two positional vectors of the tile's row and column, `eh` and `ew` (8 each), hidden
  unit `h` before the activation is `Σ_k X k · w1 k h + b1 h`, plus `eh h` when `h < 8`, plus `ew (h - 8)` when
  `8 ≤ h < 16`; the activation is `x` where `x > 0` and `exp x - 1` elsewhere; output `o` is
  `(Σ_h act (pre h) · w2 h o + b2 o) + X o · sc o`. The zero compared against and the one subtracted are kept as the
  words the programs spell them with.
-/
import Idealize.ShloMosaic.PureOps.Ideal
import Idealize.ShloMosaic.PureOps.Ideal.Laws
import Idealize.ShloMosaic.Lib.ValueIdx

noncomputable section

open scoped BigOperators

namespace Cert.Hyper

open Idealize.ShloMosaic

/-- The activation: `x` where `x > 0`, `exp x - 1` elsewhere. -/
def act (x : EReal) : EReal :=
  Scalar.select (Ideal.cmp .ogt x (Ideal.ofBits .f32 0x00000000#32)) x (Ideal.exp x - Ideal.ofBits .f32 0x3F800000#32)

/-- The affine part of hidden unit `h`: `Σ_k X k · w1 k h + b1 h`. -/
def lin (X : Fin 16 → EReal) (w1 : Fin 16 → Fin 96 → EReal) (b1 : Fin 96 → EReal) (h : Fin 96) : EReal :=
  (∑ k : Fin 16, X k * w1 k h) + b1 h

/-- Hidden unit `h` before the activation: the affine part, plus the row vector on the first eight units, plus the
    column vector on the next eight. -/
def pre (X : Fin 16 → EReal) (w1 : Fin 16 → Fin 96 → EReal) (b1 : Fin 96 → EReal) (eh ew : Fin 8 → EReal) (h : Fin 96) : EReal :=
  if h8 : h.val < 8 then lin X w1 b1 h + eh ⟨h.val, h8⟩
  else if h16 : h.val < 16 then lin X w1 b1 h + ew ⟨h.val - 8, by omega⟩
  else lin X w1 b1 h

/-- Output `o` of the tile: `(Σ_h act (pre h) · w2 h o + b2 o) + X o · sc o`. -/
def tile (X : Fin 16 → EReal) (w1 : Fin 16 → Fin 96 → EReal) (b1 : Fin 96 → EReal) (eh ew : Fin 8 → EReal)
    (w2 : Fin 96 → Fin 16 → EReal) (b2 sc : Fin 16 → EReal) (o : Fin 16) : EReal :=
  ((∑ h : Fin 96, act (pre X w1 b1 eh ew h) * w2 h o) + b2 o) + X o * sc o

end Cert.Hyper

end
-- ==== Proof.LibBatchedDot.lean ====
/-
  A batched matrix product read at an entry, over the extended reals.

  For dimension numbers with one batch axis in front — a `B × M × K` left operand, a `B × K × N` right operand, the left
  one's last axis contracted with the right one's middle axis — entry `(b, p, q)` of the product is
  `Σ_{k < K} l (b, p, k) * r (b, k, q)`: into a zero accumulator for the kernel's product, with no accumulator for the
  host's.
-/
import Idealize.ShloMosaic.PureOps.Ideal.Laws
import Idealize.ShloMosaic.Lib.ValueIdx

noncomputable section

open scoped BigOperators

namespace Cert.Lib

open Idealize.ShloMosaic Idealize.ShloMosaic.ValueIdx

/-- The sum over the contraction index, re-indexed by `Fin K`. The contraction shape has the one axis of extent `K`, so
    its indices are the `k : Fin K`; at entry `(b, p, q)` and contraction position `k` the left operand is read at
    `(b, p, k)` (the batch axis reads the entry's axis 0, the free axis its axis 1, the contracted axis reads `k`) and
    the right operand at `(b, k, q)` (the batch axis reads the entry's axis 0, the contracted axis reads `k`, the free axis
    the entry's axis 2). -/
private theorem batched_sum {B M K N : Nat}
    (D : DotDims ⟨3, ![B, M, K]⟩ ⟨3, ![B, K, N]⟩ ⟨3, ![B, M, N]⟩)
    (hlc : D.lhsContracting = [2]) (hrc : D.rhsContracting = [1]) (hln : D.lhsNonContracting = [1])
    (hrn : D.rhsNonContracting = [2]) (hlb : D.lhsBatch = [0]) (hrb : D.rhsBatch = [0])
    (l : (⟨3, ![B, M, K]⟩ : Shape).Idx → EReal) (r : (⟨3, ![B, K, N]⟩ : Shape).Idx → EReal)
    (b : Fin B) (p : Fin M) (q : Fin N) :
    ∑ k : D.contr.Idx, l (D.lhsIdx (ix3 b p q) k) * r (D.rhsIdx (ix3 b p q) k)
      = ∑ k : Fin K, l (ix3 b p k) * r (ix3 b k q) := by
  -- with its six lists known the record is a literal one up to its well-formedness proof
  obtain ⟨lc, rc, ln, rn, lb, rb, wf⟩ := D
  dsimp only at hlc hrc hln hrn hlb hrb
  subst hlc hrc hln hrn hlb hrb
  generalize hD : (⟨[2], [1], [1], [2], [0], [0], wf⟩ : DotDims ⟨3, ![B, M, K]⟩ ⟨3, ![B, K, N]⟩ ⟨3, ![B, M, N]⟩) = D
  -- the contraction shape is `[K]`
  have hr : D.contr.rank = 1 := by subst hD; rfl
  have hs : D.contr.size ⟨0, by omega⟩ = K := by subst hD; rfl
  rw [← Equiv.sum_comp (contrEquiv1 D K hr hs).symm]
  refine Finset.sum_congr rfl fun k _ => ?_
  -- the left operand's index, coordinate by coordinate
  have hl : D.lhsIdx (ix3 b p q) ((contrEquiv1 D K hr hs).symm k) = ix3 b p k := by
    funext a; refine Fin.ext ?_
    match a with
    | ⟨0, _⟩ => subst hD; rfl
    | ⟨1, _⟩ => subst hD; rfl
    | ⟨2, _⟩ => exact (D.lhsIdx_val_of_single (by subst hD; rfl) _ _).trans (contrEquiv1_symm_val D K hr hs k)
  -- the right operand's index, coordinate by coordinate
  have hrr : D.rhsIdx (ix3 b p q) ((contrEquiv1 D K hr hs).symm k) = ix3 b k q := by
    funext a; refine Fin.ext ?_
    match a with
    | ⟨0, _⟩ => subst hD; rfl
    | ⟨1, _⟩ => exact (D.rhsIdx_val_of_single (by subst hD; rfl) _ _).trans (contrEquiv1_symm_val D K hr hs k)
    | ⟨2, _⟩ => subst hD; rfl
  rw [hl, hrr]

/-- ENTRY `(b, p, q)` OF A BATCHED PRODUCT INTO ZERO: the sum over `k : Fin K` of `l (b, p, k) * r (b, k, q)`. -/
theorem matmul_batched_zero_apply {φ₁ φ₂ : FTy} {B M K N : Nat}
    (D : DotDims ⟨3, ![B, M, K]⟩ ⟨3, ![B, K, N]⟩ ⟨3, ![B, M, N]⟩)
    (hlc : D.lhsContracting = [2]) (hrc : D.rhsContracting = [1]) (hln : D.lhsNonContracting = [1])
    (hrn : D.rhsNonContracting = [2]) (hlb : D.lhsBatch = [0]) (hrb : D.rhsBatch = [0])
    (prec : Option ContractPrecision) (l : FVec Ideal ⟨3, ![B, M, K]⟩ φ₁) (r : FVec Ideal ⟨3, ![B, K, N]⟩ φ₂)
    (b : Fin B) (p : Fin M) (q : Fin N) :
    FloatOps.matmul D prec l r (constant ⟨3, ![B, M, N]⟩ .f32 0x00000000#32) (ix3 b p q)
      = ∑ k : Fin K, l (ix3 b p k) * r (ix3 b k q) := by
  rw [Ideal.matmul_constant_zero_apply]
  exact batched_sum D hlc hrc hln hrn hlb hrb l r b p q

/-- ENTRY `(b, p, q)` OF THE HOST'S BATCHED PRODUCT: the same sum, whatever the schedule key. -/
theorem dotGeneral_batched_apply {φ₁ φ₂ : FTy} {B M K N : Nat}
    (D : DotDims ⟨3, ![B, M, K]⟩ ⟨3, ![B, K, N]⟩ ⟨3, ![B, M, N]⟩)
    (hlc : D.lhsContracting = [2]) (hrc : D.rhsContracting = [1]) (hln : D.lhsNonContracting = [1])
    (hrn : D.rhsNonContracting = [2]) (hlb : D.lhsBatch = [0]) (hrb : D.rhsBatch = [0])
    (prec : Option ContractPrecision) (sched : HostSchedule) (l : FVec Ideal ⟨3, ![B, M, K]⟩ φ₁) (r : FVec Ideal ⟨3, ![B, K, N]⟩ φ₂)
    (b : Fin B) (p : Fin M) (q : Fin N) :
    FloatOps.dotGeneral D prec sched l r (ix3 b p q) = ∑ k : Fin K, l (ix3 b p k) * r (ix3 b k q) := by
  rw [Ideal.dotGeneral_apply]
  exact batched_sum D hlc hrc hln hrn hlb hrb l r b p q

end Cert.Lib

end
-- ==== Proof.LibTileCast.lean ====
/-
  Merging and splitting the two middle axes of a rank-4 array, read at coordinates.

  A `B × R × C × K` array and a `B × N × K` array with `N = R · C` have the same row-major order when row `t` of the
  second is `(r, c)` of the first with `t = C · r + c`; so a shape cast between them reads the same entry at those
  coordinates. Two shape casts in a row are one.
-/
import Idealize.ShloMosaic.Lib.Pipeline.Value
import Idealize.ShloMosaic.Lib.ValueIdx

noncomputable section

namespace Cert.Lib

open Idealize.ShloMosaic Idealize.ShloMosaic.ValueIdx

/-- The two row-major positions agree: `((b·R + r)·C + c)·K + k = (b·(R·C) + (C·r + c))·K + k`. -/
private theorem merge_pos (b R r C c K k : Nat) :
    ((b * R + r) * C + c) * K + k = (b * (R * C) + (C * r + c)) * K + k := by
  ring

/-- `[B, R, C, K] → [B, N, K]` with `N = R · C`: row `t = C · r + c` reads `(r, c)`. -/
theorem shapeCast_merge_apply {α : Type} {B R C N K : Nat} (hN : N = R * C)
    (v : (⟨4, ![B, R, C, K]⟩ : Shape).Idx → α) (h : (⟨4, ![B, R, C, K]⟩ : Shape).ShapeCasts ⟨3, ![B, N, K]⟩)
    (b : Fin B) (r : Fin R) (c : Fin C) (k : Fin K) (t : Fin N) (ht : t.val = C * r.val + c.val) :
    shapeCast ⟨3, ![B, N, K]⟩ v h (ix3 b t k) = v (ix4 b r c k) := by
  -- the same row-major position on both sides
  refine shapeCast_apply v h _ _ ?_
  rw [Shape.rowMajor_val_four, Shape.rowMajor_val_three]
  show ((b.val * R + r.val) * C + c.val) * K + k.val = (b.val * N + t.val) * K + k.val
  rw [ht, hN]
  exact merge_pos _ _ _ _ _ _ _

/-- `[B, N, K] → [B, R, C, K]` with `N = R · C`: `(r, c)` reads row `t = C · r + c`. -/
theorem shapeCast_split_apply {α : Type} {B R C N K : Nat} (hN : N = R * C)
    (v : (⟨3, ![B, N, K]⟩ : Shape).Idx → α) (h : (⟨3, ![B, N, K]⟩ : Shape).ShapeCasts ⟨4, ![B, R, C, K]⟩)
    (b : Fin B) (r : Fin R) (c : Fin C) (k : Fin K) (t : Fin N) (ht : t.val = C * r.val + c.val) :
    shapeCast ⟨4, ![B, R, C, K]⟩ v h (ix4 b r c k) = v (ix3 b t k) := by
  -- the same row-major position on both sides
  refine shapeCast_apply v h _ _ ?_
  rw [Shape.rowMajor_val_three, Shape.rowMajor_val_four]
  show (b.val * N + t.val) * K + k.val = ((b.val * R + r.val) * C + c.val) * K + k.val
  rw [ht, hN]
  exact (merge_pos _ _ _ _ _ _ _).symm

/-- Two shape casts in a row are the one cast to the last shape. -/
theorem shapeCast_trans {α : Type} {s t u : Shape} (v : s.Idx → α) (h : s.ShapeCasts t) (h' : t.ShapeCasts u)
    (h'' : s.ShapeCasts u) : shapeCast u (shapeCast t v h) h' = shapeCast u v h'' :=
  funext fun i => congrArg v (by
    show Shape.reshapeEquiv _ (Shape.reshapeEquiv _ i) = Shape.reshapeEquiv _ i
    rw [Shape.reshapeEquiv_reshapeEquiv])

end Cert.Lib

end
-- ==== Proof.KerBlockAt.lean ====
/-
  The kernel's body read at one tile: entry `(g, r, c, o)` of what the body stores is the tile network on tile
  `(r, c)` of block `g` of its input blocks.
-/
import proofs.«119823_j26594437497233_2_alg».proof.Proof.Gen.KernelIdeal.Frame
import proofs.«119823_j26594437497233_2_alg».proof.Proof.HyperSpec
import proofs.«119823_j26594437497233_2_alg».proof.Proof.LibBatchedDot
import proofs.«119823_j26594437497233_2_alg».proof.Proof.LibTileCast

noncomputable section

namespace Cert.KernelIdeal.Hand

open Idealize.ShloMosaic Idealize.ShloMosaic.ValueIdx Cert.KernelIdeal

variable [Facts]
open Facts₀ Facts

/-! ## Unit-axis casts followed by broadcasts, at coordinates -/

section Layout
variable {α : Type}

/-- A per-block vector `[8, K]` viewed `[8, 1, 1, K]` and broadcast over the tiles reads `(g, k)`. -/
private theorem bc_block16 (v : S8x16.Idx → α) (h1 : S8x16.ShapeCasts S8x1x1x16) (h2 : S8x1x1x16.Broadcasts S8x16x64x16)
    (g : Fin 8) (r : Fin 16) (c : Fin 64) (o : Fin 16) :
    broadcastTo S8x16x64x16 (shapeCast S8x1x1x16 v h1) h2 (ix4 g r c o) = v (ix2 g o) := by
  refine (broadcastTo_apply _ h2 (ix4 g r c o) (ix4 g 0 0 o) ?_).trans ?_
  · intro a
    match a with
    | ⟨0, _⟩ => rfl
    | ⟨1, _⟩ => rfl
    | ⟨2, _⟩ => rfl
    | ⟨3, _⟩ => rfl
  · refine shapeCast_apply v h1 (ix4 g 0 0 o) (ix2 g o) ?_
    rw [Shape.rowMajor_val_two, Shape.rowMajor_val_four]
    show g.val * 16 + o.val = ((g.val * 1 + 0) * 1 + 0) * 16 + o.val
    omega

private theorem bc_block96 (v : S8x96.Idx → α) (h1 : S8x96.ShapeCasts S8x1x1x96) (h2 : S8x1x1x96.Broadcasts S8x16x64x96)
    (g : Fin 8) (r : Fin 16) (c : Fin 64) (h : Fin 96) :
    broadcastTo S8x16x64x96 (shapeCast S8x1x1x96 v h1) h2 (ix4 g r c h) = v (ix2 g h) := by
  refine (broadcastTo_apply _ h2 (ix4 g r c h) (ix4 g 0 0 h) ?_).trans ?_
  · intro a
    match a with
    | ⟨0, _⟩ => rfl
    | ⟨1, _⟩ => rfl
    | ⟨2, _⟩ => rfl
    | ⟨3, _⟩ => rfl
  · refine shapeCast_apply v h1 (ix4 g 0 0 h) (ix2 g h) ?_
    rw [Shape.rowMajor_val_two, Shape.rowMajor_val_four]
    show g.val * 96 + h.val = ((g.val * 1 + 0) * 1 + 0) * 96 + h.val
    omega

/-- The row vectors `[8, 16, 8]` viewed `[8, 16, 1, 8]` and broadcast along the columns read `(g, r, e)`. -/
private theorem bc_row (v : S8x16x8.Idx → α) (h1 : S8x16x8.ShapeCasts S8x16x1x8) (h2 : S8x16x1x8.Broadcasts S8x16x64x8)
    (g : Fin 8) (r : Fin 16) (c : Fin 64) (e : Fin 8) :
    broadcastTo S8x16x64x8 (shapeCast S8x16x1x8 v h1) h2 (ix4 g r c e) = v (ix3 g r e) := by
  refine (broadcastTo_apply _ h2 (ix4 g r c e) (ix4 g r 0 e) ?_).trans ?_
  · intro a
    match a with
    | ⟨0, _⟩ => rfl
    | ⟨1, _⟩ => rfl
    | ⟨2, _⟩ => rfl
    | ⟨3, _⟩ => rfl
  · refine shapeCast_apply v h1 (ix4 g r 0 e) (ix3 g r e) ?_
    rw [Shape.rowMajor_val_three, Shape.rowMajor_val_four]
    show (g.val * 16 + r.val) * 8 + e.val = ((g.val * 16 + r.val) * 1 + 0) * 8 + e.val
    omega

/-- The column vectors `[8, 64, 8]` viewed `[8, 1, 64, 8]` and broadcast along the rows read `(g, c, e)`. -/
private theorem bc_col (v : S8x64x8.Idx → α) (h1 : S8x64x8.ShapeCasts S8x1x64x8) (h2 : S8x1x64x8.Broadcasts S8x16x64x8)
    (g : Fin 8) (r : Fin 16) (c : Fin 64) (e : Fin 8) :
    broadcastTo S8x16x64x8 (shapeCast S8x1x64x8 v h1) h2 (ix4 g r c e) = v (ix3 g c e) := by
  refine (broadcastTo_apply _ h2 (ix4 g r c e) (ix4 g 0 c e) ?_).trans ?_
  · intro a
    match a with
    | ⟨0, _⟩ => rfl
    | ⟨1, _⟩ => rfl
    | ⟨2, _⟩ => rfl
    | ⟨3, _⟩ => rfl
  · refine shapeCast_apply v h1 (ix4 g 0 c e) (ix3 g c e) ?_
    rw [Shape.rowMajor_val_three, Shape.rowMajor_val_four]
    show (g.val * 64 + c.val) * 8 + e.val = ((g.val * 1 + 0) * 64 + c.val) * 8 + e.val
    omega

end Layout

/-! ## The stored value: the second product plus the bias, plus the scaled residual -/

/-- The tile's own copy of its input is the input. -/
private theorem pay2_eq (v0 : Vec Ideal S8x16x64x16 .f32) : Gen.k0_pay2 (F := Ideal) v0 = v0 := by
  unfold Gen.k0_pay2
  exact shapeCast_self v0 _

/-- What is stored at `(g, r, c, o)`: `(P + b2 (g, o)) + X * sc (g, o)`. -/
private theorem pay1_apply (v1 v35 : FVec Ideal S8x16x64x16 .f32) (v36 v37 : Vec Ideal S8x16 .f32)
    (g : Fin 8) (r : Fin 16) (c : Fin 64) (o : Fin 16) :
    Gen.k0_pay1 (F := Ideal) v1 v35 v36 v37 (ix4 g r c o)
      = (v35 (ix4 g r c o) + v36 (ix2 g o)) + v1 (ix4 g r c o) * v37 (ix2 g o) := by
  unfold Gen.k0_pay1
  show (v35 (ix4 g r c o) + broadcastTo S8x16x64x16 (shapeCast S8x1x1x16 v36 _) _ (ix4 g r c o))
      + v1 (ix4 g r c o) * broadcastTo S8x16x64x16 (shapeCast S8x1x1x16 v37 _) _ (ix4 g r c o) = _
  rw [bc_block16, bc_block16]

/-! ## The hidden layer -/

/-- Row `64 r + c` of the merged `[8, 1024, ·]` view is tile `(r, c)`. -/
private def rowOf (r : Fin 16) (c : Fin 64) : Fin 1024 := ⟨64 * r.val + c.val, by have := r.isLt; have := c.isLt; omega⟩

/-- The first product, viewed back by tiles: entry `(g, r, c, h)` is `Σ_k X (g, r, c, k) · w1 (g, k, h)`. -/
private theorem prod1_apply (D : DotDims S8x1024x16 S8x16x96 S8x1024x96)
    (hlc : D.lhsContracting = [2]) (hrc : D.rhsContracting = [1]) (hln : D.lhsNonContracting = [1])
    (hrn : D.rhsNonContracting = [2]) (hlb : D.lhsBatch = [0]) (hrb : D.rhsBatch = [0])
    (v0 : FVec Ideal S8x16x64x16 .f32) (v3 : Vec Ideal S8x16x96 .f32)
    (hm : S8x16x64x16.ShapeCasts S8x1024x16) (hs : S8x1024x96.ShapeCasts S8x16x64x96) (hb : FTy.bits .bf16 < FTy.bits .f32)
    (g : Fin 8) (r : Fin 16) (c : Fin 64) (h : Fin 96) :
    shapeCast S8x16x64x96 (matmul D none (truncf .bf16 (shapeCast S8x1024x16 v0 hm) hb) (truncf .bf16 v3 hb)
        (constant S8x1024x96 .f32 0x00000000#32)) hs (ix4 g r c h)
      = ∑ k : Fin 16, v0 (ix4 g r c k) * v3 (ix3 g k h) := by
  refine (Cert.Lib.shapeCast_split_apply (R := 16) (C := 64) rfl _ hs g r c h (rowOf r c) rfl).trans ?_
  refine (Cert.Lib.matmul_batched_zero_apply D hlc hrc hln hrn hlb hrb none _ _ g (rowOf r c) h).trans ?_
  refine Finset.sum_congr rfl (fun k _ => ?_)
  show shapeCast S8x1024x16 v0 hm (ix3 g (rowOf r c) k) * v3 (ix3 g k h) = _
  rw [Cert.Lib.shapeCast_merge_apply (R := 16) (C := 64) rfl v0 hm g r c k (rowOf r c) rfl]

/-- The second product, viewed back by tiles: entry `(g, r, c, o)` is `Σ_h A (g, r, c, h) · w2 (g, h, o)`. -/
private theorem prod2_apply (D : DotDims S8x1024x96 S8x96x16 S8x1024x16)
    (hlc : D.lhsContracting = [2]) (hrc : D.rhsContracting = [1]) (hln : D.lhsNonContracting = [1])
    (hrn : D.rhsNonContracting = [2]) (hlb : D.lhsBatch = [0]) (hrb : D.rhsBatch = [0])
    (v29 : FVec Ideal S8x16x64x96 .f32) (v31 : Vec Ideal S8x96x16 .f32)
    (hm : S8x16x64x96.ShapeCasts S8x1024x96) (hs : S8x1024x16.ShapeCasts S8x16x64x16) (hb : FTy.bits .bf16 < FTy.bits .f32)
    (g : Fin 8) (r : Fin 16) (c : Fin 64) (o : Fin 16) :
    shapeCast S8x16x64x16 (matmul D none (truncf .bf16 (shapeCast S8x1024x96 v29 hm) hb) (truncf .bf16 v31 hb)
        (constant S8x1024x16 .f32 0x00000000#32)) hs (ix4 g r c o)
      = ∑ h : Fin 96, v29 (ix4 g r c h) * v31 (ix3 g h o) := by
  refine (Cert.Lib.shapeCast_split_apply (R := 16) (C := 64) rfl _ hs g r c o (rowOf r c) rfl).trans ?_
  refine (Cert.Lib.matmul_batched_zero_apply D hlc hrc hln hrn hlb hrb none _ _ g (rowOf r c) o).trans ?_
  refine Finset.sum_congr rfl (fun h _ => ?_)
  show shapeCast S8x1024x96 v29 hm (ix3 g (rowOf r c) h) * v31 (ix3 g h o) = _
  rw [Cert.Lib.shapeCast_merge_apply (R := 16) (C := 64) rfl v29 hm g r c h (rowOf r c) rfl]

/-- The activation, element by element. -/
private theorem act_apply (v23 : FVec Ideal S8x16x64x96 .f32) (i : S8x16x64x96.Idx) :
    select (cmpf .ogt v23 (broadcast S8x16x64x96 (Scalar.ofBits (F := Ideal) .f32 0x00000000#32))) v23
        (subf (exp v23) (broadcast S8x16x64x96 (Scalar.ofBits (F := Ideal) .f32 0x3F800000#32))) i
      = Cert.Hyper.act (v23 i) := rfl

/-- The concatenated pre-activation at `(g, r, c, h)`: the affine part there, plus the row vector on the first eight
    units and the column vector on the next eight. -/
private theorem hid_apply (v11 : FVec Ideal S8x16x64x96 .f32) (v12 : Vec Ideal S8x16x8 .f32) (v13 : Vec Ideal S8x64x8 .f32)
    (hs0 : S8x16x64x96.Slices ![0, 0, 0, 0] S8x16x64x8) (hs8 : S8x16x64x96.Slices ![0, 0, 0, 8] S8x16x64x8)
    (hs16 : S8x16x64x96.Slices ![0, 0, 0, 16] S8x16x64x80)
    (hc1 : S8x16x8.ShapeCasts S8x16x1x8) (hb1 : S8x16x1x8.Broadcasts S8x16x64x8)
    (hc2 : S8x64x8.ShapeCasts S8x1x64x8) (hb2 : S8x1x64x8.Broadcasts S8x16x64x8)
    (hcat : Shape.Concatenates [S8x16x64x8, S8x16x64x8, S8x16x64x80] S8x16x64x96 3)
    (g : Fin 8) (r : Fin 16) (c : Fin 64) (h : Fin 96) (L : EReal) (hL : v11 (ix4 g r c h) = L) :
    concatenate S8x16x64x96 3
        [⟨S8x16x64x8, addf (extractStridedSlice S8x16x64x8 ![0, 0, 0, 0] v11 hs0)
            (broadcastTo S8x16x64x8 (shapeCast S8x16x1x8 v12 hc1) hb1)⟩,
         ⟨S8x16x64x8, addf (extractStridedSlice S8x16x64x8 ![0, 0, 0, 8] v11 hs8)
            (broadcastTo S8x16x64x8 (shapeCast S8x1x64x8 v13 hc2) hb2)⟩,
         ⟨S8x16x64x80, extractStridedSlice S8x16x64x80 ![0, 0, 0, 16] v11 hs16⟩] hcat (ix4 g r c h)
      = if h8 : h.val < 8 then L + v12 (ix3 g r ⟨h.val, h8⟩)
        else if h16 : h.val < 16 then L + v13 (ix3 g c ⟨h.val - 8, by omega⟩)
        else L := by
  subst hL
  -- the three pieces, and the concatenation read in the piece that holds `h`
  have hA : ∀ e : Fin 8, addf (extractStridedSlice S8x16x64x8 ![0, 0, 0, 0] v11 hs0)
      (broadcastTo S8x16x64x8 (shapeCast S8x16x1x8 v12 hc1) hb1) (ix4 g r c e)
        = v11 (ix4 g r c ⟨e.val, by have := e.isLt; omega⟩) + v12 (ix3 g r e) := by
    intro e
    show extractStridedSlice S8x16x64x8 ![0, 0, 0, 0] v11 hs0 (ix4 g r c e)
        + broadcastTo S8x16x64x8 (shapeCast S8x16x1x8 v12 hc1) hb1 (ix4 g r c e) = _
    rw [bc_row]
    refine congrArg (· + _) ?_
    refine extractStridedSlice_apply _ v11 hs0 _ _ ?_
    intro a
    match a with
    | ⟨0, _⟩ => exact (Nat.zero_add _).symm
    | ⟨1, _⟩ => exact (Nat.zero_add _).symm
    | ⟨2, _⟩ => exact (Nat.zero_add _).symm
    | ⟨3, _⟩ => exact (Nat.zero_add _).symm
  have hB : ∀ e : Fin 8, addf (extractStridedSlice S8x16x64x8 ![0, 0, 0, 8] v11 hs8)
      (broadcastTo S8x16x64x8 (shapeCast S8x1x64x8 v13 hc2) hb2) (ix4 g r c e)
        = v11 (ix4 g r c ⟨8 + e.val, by have := e.isLt; omega⟩) + v13 (ix3 g c e) := by
    intro e
    show extractStridedSlice S8x16x64x8 ![0, 0, 0, 8] v11 hs8 (ix4 g r c e)
        + broadcastTo S8x16x64x8 (shapeCast S8x1x64x8 v13 hc2) hb2 (ix4 g r c e) = _
    rw [bc_col]
    refine congrArg (· + _) ?_
    refine extractStridedSlice_apply _ v11 hs8 _ _ ?_
    intro a
    match a with
    | ⟨0, _⟩ => exact (Nat.zero_add _).symm
    | ⟨1, _⟩ => exact (Nat.zero_add _).symm
    | ⟨2, _⟩ => exact (Nat.zero_add _).symm
    | ⟨3, _⟩ => rfl
  have hC : ∀ e : Fin 80, extractStridedSlice S8x16x64x80 ![0, 0, 0, 16] v11 hs16 (ix4 g r c e)
        = v11 (ix4 g r c ⟨16 + e.val, by have := e.isLt; omega⟩) := by
    intro e
    refine extractStridedSlice_apply _ v11 hs16 _ _ ?_
    intro a
    match a with
    | ⟨0, _⟩ => exact (Nat.zero_add _).symm
    | ⟨1, _⟩ => exact (Nat.zero_add _).symm
    | ⟨2, _⟩ => exact (Nat.zero_add _).symm
    | ⟨3, _⟩ => rfl
  generalize addf (extractStridedSlice S8x16x64x8 ![0, 0, 0, 0] v11 hs0)
      (broadcastTo S8x16x64x8 (shapeCast S8x16x1x8 v12 hc1) hb1) = A at hA ⊢
  generalize addf (extractStridedSlice S8x16x64x8 ![0, 0, 0, 8] v11 hs8)
      (broadcastTo S8x16x64x8 (shapeCast S8x1x64x8 v13 hc2) hb2) = B at hB ⊢
  generalize extractStridedSlice S8x16x64x80 ![0, 0, 0, 16] v11 hs16 = C at hC ⊢
  have key := concatenate_apply_piece (α := Ideal .f32) (t := S8x16x64x96) 3
    [⟨S8x16x64x8, A⟩, ⟨S8x16x64x8, B⟩, ⟨S8x16x64x80, C⟩] hcat (ix4 g r c h)
  have hoff : ∀ (K : Nat) (e : Fin K) (b : Fin 4), b.cast (rfl : 4 = 4) ≠ (3 : Fin 4) →
      ((ix4 g r c e : (⟨4, ![8, 16, 64, K]⟩ : Shape).Idx) b).val = ((ix4 g r c h : S8x16x64x96.Idx) (b.cast rfl)).val := by
    intro K e b hb
    match b with
    | ⟨0, _⟩ => rfl
    | ⟨1, _⟩ => rfl
    | ⟨2, _⟩ => rfl
    | ⟨3, _⟩ => exact absurd rfl hb
  by_cases h8 : h.val < 8
  · rw [dif_pos h8]
    refine (key 0 (by show 0 < 3; omega) S8x16x64x8 A rfl rfl 0 rfl (ix4 g r c ⟨h.val, h8⟩) (hoff 8 _) ?_).trans ?_
    · show 0 + h.val = h.val
      omega
    · exact hA ⟨h.val, h8⟩
  · rw [dif_neg h8]
    by_cases h16 : h.val < 16
    · rw [dif_pos h16]
      refine (key 1 (by show 1 < 3; omega) S8x16x64x8 B rfl rfl 8 rfl (ix4 g r c ⟨h.val - 8, by omega⟩) (hoff 8 _) ?_).trans ?_
      · show 8 + (h.val - 8) = h.val
        omega
      · refine (hB ⟨h.val - 8, by omega⟩).trans ?_
        refine congrArg (fun z => v11 (ix4 g r c z) + _) (Fin.ext ?_)
        show 8 + (h.val - 8) = h.val
        omega
    · rw [dif_neg h16]
      have hlt : h.val - 16 < 80 := by have := h.isLt; omega
      refine (key 2 (by show 2 < 3; omega) S8x16x64x80 C rfl rfl 16 rfl (ix4 g r c ⟨h.val - 16, hlt⟩) (hoff 80 _) ?_).trans ?_
      · show 16 + (h.val - 16) = h.val
        omega
      · refine (hC ⟨h.val - 16, hlt⟩).trans ?_
        refine congrArg (fun z => v11 (ix4 g r c z)) (Fin.ext ?_)
        show 16 + (h.val - 16) = h.val
        omega

/-- The second product of the body at `(g, r, c, o)`: `Σ_h act (pre h) · w2 (g, h, o)` over the tile's data. -/
private theorem pay3_apply (v0 : Vec Ideal S8x16x64x16 .f32) (v3 : Vec Ideal S8x16x96 .f32) (v8 : Vec Ideal S8x96 .f32)
    (v12 : Vec Ideal S8x16x8 .f32) (v13 : Vec Ideal S8x64x8 .f32) (v31 : Vec Ideal S8x96x16 .f32)
    (g : Fin 8) (r : Fin 16) (c : Fin 64) (o : Fin 16) :
    Gen.k0_pay3 (F := Ideal) v0 v3 v8 v12 v13 v31 (ix4 g r c o)
      = ∑ h : Fin 96, Cert.Hyper.act (Cert.Hyper.pre (fun k => v0 (ix4 g r c k)) (fun k h => v3 (ix3 g k h))
          (fun h => v8 (ix2 g h)) (fun e => v12 (ix3 g r e)) (fun e => v13 (ix3 g c e)) h) * v31 (ix3 g h o) := by
  unfold Gen.k0_pay3
  rw [pay2_eq]
  refine (prod2_apply _ rfl rfl rfl rfl rfl rfl _ v31 _ _ _ g r c o).trans ?_
  refine Finset.sum_congr rfl (fun h _ => ?_)
  refine congrArg (· * _) ?_
  refine (act_apply _ _).trans (congrArg Cert.Hyper.act ?_)
  refine (hid_apply _ v12 v13 _ _ _ _ _ _ _ _ g r c h
    (Cert.Hyper.lin (fun k => v0 (ix4 g r c k)) (fun k h => v3 (ix3 g k h)) (fun h => v8 (ix2 g h)) h) ?_).trans ?_
  · refine (addf_apply _ _ _).trans ?_
    exact congrArg₂ (· + ·) (prod1_apply _ rfl rfl rfl rfl rfl rfl v0 v3 _ _ _ g r c h) (bc_block96 v8 _ _ g r c h)
  · rfl

/-- Entry `(g, r, c, o)` of what the body stores is the tile network on tile `(r, c)` of block `g`. -/
theorem out0_8_apply (x0 : Vec Ideal S8x16x64x16 .f32) (x1 : Vec Ideal S8x16x96 .f32) (x2 : Vec Ideal S8x96 .f32)
    (x3 : Vec Ideal S8x16x8 .f32) (x4 : Vec Ideal S8x64x8 .f32) (x5 : Vec Ideal S8x96x16 .f32) (x6 x7 : Vec Ideal S8x16 .f32)
    (g : Fin 8) (r : Fin 16) (c : Fin 64) (o : Fin 16) :
    Cert.KernelIdeal.Gen.out0_8 (F := Ideal) x0 x1 x2 x3 x4 x5 x6 x7 (ix4 g r c o)
      = Cert.Hyper.tile (fun k => x0 (ix4 g r c k)) (fun k h => x1 (ix3 g k h)) (fun h => x2 (ix2 g h))
          (fun e => x3 (ix3 g r e)) (fun e => x4 (ix3 g c e)) (fun h o' => x5 (ix3 g h o'))
          (fun o' => x6 (ix2 g o')) (fun o' => x7 (ix2 g o')) o := by
  have hz4 : (![0, 0, 0, 0] : Fin 4 → ℕ) = fun _ => 0 := funext fun a => by fin_cases a <;> rfl
  have hz3 : (![0, 0, 0] : Fin 3 → ℕ) = fun _ => 0 := funext fun a => by fin_cases a <;> rfl
  have hz2 : (![0, 0] : Fin 2 → ℕ) = fun _ => 0 := funext fun a => by fin_cases a <;> rfl
  unfold Gen.out0_8
  rw [View.canon_unit_zero hz4]
  simp only [View.ld_unit_zero (S := S8x16x64x16) hz4, View.ld_unit_zero (S := S8x16x96) hz3,
    View.ld_unit_zero (S := S8x96) hz2, View.ld_unit_zero (S := S8x16x8) hz3, View.ld_unit_zero (S := S8x64x8) hz3,
    View.ld_unit_zero (S := S8x96x16) hz3, View.ld_unit_zero (S := S8x16) hz2]
  rw [pay1_apply, pay2_eq, pay3_apply]
  rfl

end Cert.KernelIdeal.Hand

end
-- ==== Proof.KerArray.lean ====
/-
  The kernel's output array from its blocks.

  Grid point `t` is `(t / 4, t % 4)`: it handles blocks `8 (t / 4) … 8 (t / 4) + 7` and tile rows
  `16 (t % 4) … 16 (t % 4) + 15`, all 64 tile columns. Every input window's block at `t` is the restriction of its array
  to those blocks (and, for the tiles and the row vectors, those rows); the body's result at an entry of its block is
  the tile network on that tile; so what point `t` writes back is block `t` of ONE function of the arrays, `arrayOut`,
  and since the blocks tile the 256 × 64 × 64 × 16 array, the array ends holding `arrayOut`.
-/
import proofs.«119823_j26594437497233_2_alg».proof.Proof.Gen.KernelIdeal.Frame
import proofs.«119823_j26594437497233_2_alg».proof.Proof.KerBlockAt
import proofs.«119823_j26594437497233_2_alg».proof.Proof.HyperSpec
import Idealize.ShloMosaic.Lib.Pipeline.Value
import Idealize.ShloMosaic.Lib.ValueIdx

set_option maxRecDepth 16384

noncomputable section

namespace Cert.KernelIdeal.Hand

open Idealize.ShloMosaic Idealize.ShloMosaic.ValueIdx Idealize.ShloMosaic.TcCoe Idealize.SL.Sem Cert.KernelIdeal Cert.KernelIdeal.Gen
open Idealize.ShloMosaic.Pipeline (Dat Cfg Window)

open Facts₀ Facts

/-- The tile network on tile `(r, c)` of block `b` of the whole arrays. -/
def tileAt (X : FVec Ideal S256x64x64x16 .f32) (a1 : FVec Ideal S256x16x96 .f32) (a2 : FVec Ideal S256x96 .f32)
    (a3 a4 : FVec Ideal S256x64x8 .f32) (a5 : FVec Ideal S256x96x16 .f32) (a6 a7 : FVec Ideal S256x16 .f32)
    (b : Fin 256) (r c : Fin 64) (o : Fin 16) : EReal :=
  Cert.Hyper.tile (fun k => X (ix4 b r c k)) (fun k h => a1 (ix3 b k h)) (fun h => a2 (ix2 b h))
    (fun e => a3 (ix3 b r e)) (fun e => a4 (ix3 b c e)) (fun h o' => a5 (ix3 b h o'))
    (fun o' => a6 (ix2 b o')) (fun o' => a7 (ix2 b o')) o

/-- The whole output array: the tile network at every tile. -/
def arrayOut (X : FVec Ideal S256x64x64x16 .f32) (a1 : FVec Ideal S256x16x96 .f32) (a2 : FVec Ideal S256x96 .f32)
    (a3 a4 : FVec Ideal S256x64x8 .f32) (a5 : FVec Ideal S256x96x16 .f32) (a6 a7 : FVec Ideal S256x16 .f32) :
    FVec Ideal S256x64x64x16 .f32 :=
  fun i => tileAt X a1 a2 a3 a4 a5 a6 a7 (i 0) (i 1) (i 2) (i 3)

/-- The printed index maps over the grid: point `t` is `(t / 4, t % 4)`. -/
theorem idx_facts : ∀ t : Fin cfg0.N,
    (win0_0.index t (0 : Fin 4) = t.val / 4 ∧ win0_0.index t (1 : Fin 4) = t.val % 4 ∧ win0_0.index t (2 : Fin 4) = 0 ∧ win0_0.index t (3 : Fin 4) = 0)
    ∧ (win0_1.index t (0 : Fin 3) = t.val / 4 ∧ win0_1.index t (1 : Fin 3) = 0 ∧ win0_1.index t (2 : Fin 3) = 0)
    ∧ (win0_2.index t (0 : Fin 2) = t.val / 4 ∧ win0_2.index t (1 : Fin 2) = 0)
    ∧ (win0_3.index t (0 : Fin 3) = t.val / 4 ∧ win0_3.index t (1 : Fin 3) = t.val % 4 ∧ win0_3.index t (2 : Fin 3) = 0)
    ∧ (win0_4.index t (0 : Fin 3) = t.val / 4 ∧ win0_4.index t (1 : Fin 3) = 0 ∧ win0_4.index t (2 : Fin 3) = 0)
    ∧ (win0_5.index t (0 : Fin 3) = t.val / 4 ∧ win0_5.index t (1 : Fin 3) = 0 ∧ win0_5.index t (2 : Fin 3) = 0)
    ∧ (win0_6.index t (0 : Fin 2) = t.val / 4 ∧ win0_6.index t (1 : Fin 2) = 0)
    ∧ (win0_7.index t (0 : Fin 2) = t.val / 4 ∧ win0_7.index t (1 : Fin 2) = 0)
    ∧ (win0_8.index t (0 : Fin 4) = t.val / 4 ∧ win0_8.index t (1 : Fin 4) = t.val % 4 ∧ win0_8.index t (2 : Fin 4) = 0 ∧ win0_8.index t (3 : Fin 4) = 0) :=
  (by decide +kernel : ∀ t : Fin grid0.N, _)

/-- Point `t` is `(t / 4, t % 4)` with `t < 128`. -/
theorem point_lt (t : Fin cfg0.N) : t.val < 128 := lt_of_lt_of_eq t.isLt N_0

/-- Block `g` of point `t` among the 256. -/
def blkOf (t : Fin cfg0.N) (g : Fin 8) : Fin 256 := ⟨8 * (t.val / 4) + g.val, by have := point_lt t; omega⟩
/-- Tile row `r` of point `t` among the 64. -/
def rowOf (t : Fin cfg0.N) (r : Fin 16) : Fin 64 := ⟨16 * (t.val % 4) + r.val, by omega⟩

variable (m : (ℓ : Loc nD τ sig) → Buf (Elt Ideal) ℓ)

/-- The tiles' block at `t` is the tiled array's blocks `8 (t / 4) + g`, rows `16 (t % 4) + r`. -/
theorem read0 (c : Dev nD) (t : Fin cfg0.N) (g : Fin 8) (r : Fin 16) (cc : Fin 64) (k : Fin 16) :
    (iblk m c 0 t : Vec Ideal S8x16x64x16 .f32) (ix4 g r cc k) = V m c main_v2 (ix4 (blkOf t g) (rowOf t r) cc k) := by
  obtain ⟨⟨e0, e1, e2, e3⟩, -⟩ := idx_facts t
  show V m c main_v2 (((cfg0.win 0).blk t).view.emb (ix4 g r cc k)) = _
  refine congrArg _ (funext fun a => Fin.ext ?_)
  match a with
  | ⟨0, _⟩ => show win0_0.index t (0 : Fin 4) * 8 + 1 * g.val = 8 * (t.val / 4) + g.val; omega
  | ⟨1, _⟩ => show win0_0.index t (1 : Fin 4) * 16 + 1 * r.val = 16 * (t.val % 4) + r.val; omega
  | ⟨2, _⟩ => show win0_0.index t (2 : Fin 4) * 64 + 1 * cc.val = cc.val; omega
  | ⟨3, _⟩ => show win0_0.index t (3 : Fin 4) * 16 + 1 * k.val = k.val; omega

/-- The first-layer weights' block at `t`: blocks `8 (t / 4) + g`. -/
theorem read1 (c : Dev nD) (t : Fin cfg0.N) (g : Fin 8) (k : Fin 16) (h : Fin 96) :
    (iblk m c 1 t : Vec Ideal S8x16x96 .f32) (ix3 g k h) = V m c main_arg1 (ix3 (blkOf t g) k h) := by
  obtain ⟨-, ⟨e0, e1, e2⟩, -⟩ := idx_facts t
  show V m c main_arg1 (((cfg0.win 1).blk t).view.emb (ix3 g k h)) = _
  refine congrArg _ (funext fun a => Fin.ext ?_)
  match a with
  | ⟨0, _⟩ => show win0_1.index t (0 : Fin 3) * 8 + 1 * g.val = 8 * (t.val / 4) + g.val; omega
  | ⟨1, _⟩ => show win0_1.index t (1 : Fin 3) * 16 + 1 * k.val = k.val; omega
  | ⟨2, _⟩ => show win0_1.index t (2 : Fin 3) * 96 + 1 * h.val = h.val; omega

/-- The first-layer biases' block. -/
theorem read2 (c : Dev nD) (t : Fin cfg0.N) (g : Fin 8) (h : Fin 96) :
    (iblk m c 2 t : Vec Ideal S8x96 .f32) (ix2 g h) = V m c main_arg2 (ix2 (blkOf t g) h) := by
  obtain ⟨-, -, ⟨e0, e1⟩, -⟩ := idx_facts t
  show V m c main_arg2 (((cfg0.win 2).blk t).view.emb (ix2 g h)) = _
  refine congrArg _ (funext fun a => Fin.ext ?_)
  match a with
  | ⟨0, _⟩ => show win0_2.index t (0 : Fin 2) * 8 + 1 * g.val = 8 * (t.val / 4) + g.val; omega
  | ⟨1, _⟩ => show win0_2.index t (1 : Fin 2) * 96 + 1 * h.val = h.val; omega

/-- The row vectors' block: blocks `8 (t / 4) + g`, rows `16 (t % 4) + r`. -/
theorem read3 (c : Dev nD) (t : Fin cfg0.N) (g : Fin 8) (r : Fin 16) (e : Fin 8) :
    (iblk m c 3 t : Vec Ideal S8x16x8 .f32) (ix3 g r e) = V m c main_arg3 (ix3 (blkOf t g) (rowOf t r) e) := by
  obtain ⟨-, -, -, ⟨e0, e1, e2⟩, -⟩ := idx_facts t
  show V m c main_arg3 (((cfg0.win 3).blk t).view.emb (ix3 g r e)) = _
  refine congrArg _ (funext fun a => Fin.ext ?_)
  match a with
  | ⟨0, _⟩ => show win0_3.index t (0 : Fin 3) * 8 + 1 * g.val = 8 * (t.val / 4) + g.val; omega
  | ⟨1, _⟩ => show win0_3.index t (1 : Fin 3) * 16 + 1 * r.val = 16 * (t.val % 4) + r.val; omega
  | ⟨2, _⟩ => show win0_3.index t (2 : Fin 3) * 8 + 1 * e.val = e.val; omega

/-- The column vectors' block: all 64 columns of blocks `8 (t / 4) + g`. -/
theorem read4 (c : Dev nD) (t : Fin cfg0.N) (g : Fin 8) (cc : Fin 64) (e : Fin 8) :
    (iblk m c 4 t : Vec Ideal S8x64x8 .f32) (ix3 g cc e) = V m c main_arg4 (ix3 (blkOf t g) cc e) := by
  obtain ⟨-, -, -, -, ⟨e0, e1, e2⟩, -⟩ := idx_facts t
  show V m c main_arg4 (((cfg0.win 4).blk t).view.emb (ix3 g cc e)) = _
  refine congrArg _ (funext fun a => Fin.ext ?_)
  match a with
  | ⟨0, _⟩ => show win0_4.index t (0 : Fin 3) * 8 + 1 * g.val = 8 * (t.val / 4) + g.val; omega
  | ⟨1, _⟩ => show win0_4.index t (1 : Fin 3) * 64 + 1 * cc.val = cc.val; omega
  | ⟨2, _⟩ => show win0_4.index t (2 : Fin 3) * 8 + 1 * e.val = e.val; omega

/-- The second-layer weights' block. -/
theorem read5 (c : Dev nD) (t : Fin cfg0.N) (g : Fin 8) (h : Fin 96) (o : Fin 16) :
    (iblk m c 5 t : Vec Ideal S8x96x16 .f32) (ix3 g h o) = V m c main_arg5 (ix3 (blkOf t g) h o) := by
  obtain ⟨-, -, -, -, -, ⟨e0, e1, e2⟩, -⟩ := idx_facts t
  show V m c main_arg5 (((cfg0.win 5).blk t).view.emb (ix3 g h o)) = _
  refine congrArg _ (funext fun a => Fin.ext ?_)
  match a with
  | ⟨0, _⟩ => show win0_5.index t (0 : Fin 3) * 8 + 1 * g.val = 8 * (t.val / 4) + g.val; omega
  | ⟨1, _⟩ => show win0_5.index t (1 : Fin 3) * 96 + 1 * h.val = h.val; omega
  | ⟨2, _⟩ => show win0_5.index t (2 : Fin 3) * 16 + 1 * o.val = o.val; omega

/-- The second-layer biases' block. -/
theorem read6 (c : Dev nD) (t : Fin cfg0.N) (g : Fin 8) (o : Fin 16) :
    (iblk m c 6 t : Vec Ideal S8x16 .f32) (ix2 g o) = V m c main_arg6 (ix2 (blkOf t g) o) := by
  obtain ⟨-, -, -, -, -, -, ⟨e0, e1⟩, -⟩ := idx_facts t
  show V m c main_arg6 (((cfg0.win 6).blk t).view.emb (ix2 g o)) = _
  refine congrArg _ (funext fun a => Fin.ext ?_)
  match a with
  | ⟨0, _⟩ => show win0_6.index t (0 : Fin 2) * 8 + 1 * g.val = 8 * (t.val / 4) + g.val; omega
  | ⟨1, _⟩ => show win0_6.index t (1 : Fin 2) * 16 + 1 * o.val = o.val; omega

/-- The residual scales' block. -/
theorem read7 (c : Dev nD) (t : Fin cfg0.N) (g : Fin 8) (o : Fin 16) :
    (iblk m c 7 t : Vec Ideal S8x16 .f32) (ix2 g o) = V m c main_arg7 (ix2 (blkOf t g) o) := by
  obtain ⟨-, -, -, -, -, -, -, ⟨e0, e1⟩, -⟩ := idx_facts t
  show V m c main_arg7 (((cfg0.win 7).blk t).view.emb (ix2 g o)) = _
  refine congrArg _ (funext fun a => Fin.ext ?_)
  match a with
  | ⟨0, _⟩ => show win0_7.index t (0 : Fin 2) * 8 + 1 * g.val = 8 * (t.val / 4) + g.val; omega
  | ⟨1, _⟩ => show win0_7.index t (1 : Fin 2) * 16 + 1 * o.val = o.val; omega

/-- The body's result at entry `(g, r, c, o)` of point `t`'s block is the tile network at tile
    `(16 (t % 4) + r, c)` of block `8 (t / 4) + g` of the arrays. -/
theorem point_eq (c : Dev nD) (t : Fin cfg0.N) (g : Fin 8) (r : Fin 16) (cc : Fin 64) (o : Fin 16) :
    out0_8 (F := Ideal) (iblk m c 0 t) (iblk m c 1 t) (iblk m c 2 t) (iblk m c 3 t) (iblk m c 4 t) (iblk m c 5 t) (iblk m c 6 t) (iblk m c 7 t) (ix4 g r cc o)
      = tileAt (V m c main_v2) (V m c main_arg1) (V m c main_arg2) (V m c main_arg3) (V m c main_arg4) (V m c main_arg5) (V m c main_arg6) (V m c main_arg7)
          (blkOf t g) (rowOf t r) cc o := by
  refine (out0_8_apply (iblk m c 0 t) (iblk m c 1 t) (iblk m c 2 t) (iblk m c 3 t) (iblk m c 4 t) (iblk m c 5 t) (iblk m c 6 t) (iblk m c 7 t) g r cc o).trans ?_
  unfold tileAt
  have h0 : (fun k => (iblk m c 0 t : Vec Ideal S8x16x64x16 .f32) (ix4 g r cc k)) = fun k => V m c main_v2 (ix4 (blkOf t g) (rowOf t r) cc k) :=
    funext fun k => read0 m c t g r cc k
  have h1 : (fun k h => (iblk m c 1 t : Vec Ideal S8x16x96 .f32) (ix3 g k h)) = fun k h => V m c main_arg1 (ix3 (blkOf t g) k h) :=
    funext fun k => funext fun h => read1 m c t g k h
  have h2 : (fun h => (iblk m c 2 t : Vec Ideal S8x96 .f32) (ix2 g h)) = fun h => V m c main_arg2 (ix2 (blkOf t g) h) :=
    funext fun h => read2 m c t g h
  have h3 : (fun e => (iblk m c 3 t : Vec Ideal S8x16x8 .f32) (ix3 g r e)) = fun e => V m c main_arg3 (ix3 (blkOf t g) (rowOf t r) e) :=
    funext fun e => read3 m c t g r e
  have h4 : (fun e => (iblk m c 4 t : Vec Ideal S8x64x8 .f32) (ix3 g cc e)) = fun e => V m c main_arg4 (ix3 (blkOf t g) cc e) :=
    funext fun e => read4 m c t g cc e
  have h5 : (fun h o' => (iblk m c 5 t : Vec Ideal S8x96x16 .f32) (ix3 g h o')) = fun h o' => V m c main_arg5 (ix3 (blkOf t g) h o') :=
    funext fun h => funext fun o' => read5 m c t g h o'
  have h6 : (fun o' => (iblk m c 6 t : Vec Ideal S8x16 .f32) (ix2 g o')) = fun o' => V m c main_arg6 (ix2 (blkOf t g) o') :=
    funext fun o' => read6 m c t g o'
  have h7 : (fun o' => (iblk m c 7 t : Vec Ideal S8x16 .f32) (ix2 g o')) = fun o' => V m c main_arg7 (ix2 (blkOf t g) o') :=
    funext fun o' => read7 m c t g o'
  rw [h0, h1, h2, h3, h4, h5, h6, h7]

/-- WHAT POINT `t` WRITES BACK is block `t` of `arrayOut` of the arrays as the region finds them. -/
theorem flushed_eq (c : Dev nD) (t : Fin cfg0.N) :
    (dats m 0 c).flushed 8 t = ((cfg0.win 8).blk t).view.read (Elt Ideal)
      (arrayOut (V m c main_v2) (V m c main_arg1) (V m c main_arg2) (V m c main_arg3) (V m c main_arg4) (V m c main_arg5) (V m c main_arg6) (V m c main_arg7)) := by
  show (cfg0.win 8).cut (grid0.coords t) ((dats m 0 c).after 8 t) = _
  rw [after0_8]
  obtain ⟨-, -, -, -, -, -, -, -, ⟨e0, e1, e2, e3⟩⟩ := idx_facts t
  funext j
  have c0 : ((((cfg0.win 8).blk t).view.emb j) 0 : Fin 256) = blkOf t (j 0) :=
    Fin.ext (by show win0_8.index t (0 : Fin 4) * 8 + 1 * (j 0).val = 8 * (t.val / 4) + (j 0).val; omega)
  have c1 : ((((cfg0.win 8).blk t).view.emb j) 1 : Fin 64) = rowOf t (j 1) :=
    Fin.ext (by show win0_8.index t (1 : Fin 4) * 16 + 1 * (j 1).val = 16 * (t.val % 4) + (j 1).val; omega)
  have c2 : ((((cfg0.win 8).blk t).view.emb j) 2 : Fin 64) = j 2 :=
    Fin.ext (by show win0_8.index t (2 : Fin 4) * 64 + 1 * (j 2).val = (j 2).val; omega)
  have c3 : ((((cfg0.win 8).blk t).view.emb j) 3 : Fin 16) = j 3 :=
    Fin.ext (by show win0_8.index t (3 : Fin 4) * 16 + 1 * (j 3).val = (j 3).val; omega)
  show out0_8 (F := Ideal) (iblk m c 0 t) (iblk m c 1 t) (iblk m c 2 t) (iblk m c 3 t) (iblk m c 4 t) (iblk m c 5 t) (iblk m c 6 t) (iblk m c 7 t) j
    = tileAt (V m c main_v2) (V m c main_arg1) (V m c main_arg2) (V m c main_arg3) (V m c main_arg4) (V m c main_arg5) (V m c main_arg6) (V m c main_arg7)
        ((((cfg0.win 8).blk t).view.emb j) 0) ((((cfg0.win 8).blk t).view.emb j) 1) ((((cfg0.win 8).blk t).view.emb j) 2) ((((cfg0.win 8).blk t).view.emb j) 3)
  rw [c0, c1, c2, c3, ← point_eq m c t (j 0) (j 1) (j 2) (j 3)]
  exact congrArg _ (eq_ix4 j)

/-- An index of the array is in point `t`'s block iff each coordinate is in the block's range on its axis. -/
theorem mem_blk8 (t : Fin cfg0.N) (i : S256x64x64x16.Idx) :
    i ∈ ((cfg0.win 8).blk t).view.set ↔ ∀ a : Fin 4, win0_8.index t a * S8x16x64x16.size a ≤ (i a).val ∧ (i a).val < win0_8.index t a * S8x16x64x16.size a + S8x16x64x16.size a := by
  show i ∈ ((View.whole main_v3).slice (win0_8.rect t)).set ↔ _
  rw [View.set_slice_whole, Rect.mem_set_unit]
  exact Iff.rfl

/-- The blocks tile the array: index `i` is in the block of point `4 (i₀ / 8) + i₁ / 16`. -/
theorem cover8 (i : S256x64x64x16.Idx) :
    ∃ t : Fin cfg0.N, (cfg0.win 8).flush t = true ∧ i ∈ ((cfg0.win 8).blk t).view.set := by
  have hi0 : (i 0).val < 256 := (i 0).isLt
  have hi1 : (i 1).val < 64 := (i 1).isLt
  have hi2 : (i 2).val < 64 := (i 2).isLt
  have hi3 : (i 3).val < 16 := (i 3).isLt
  have hN : 4 * ((i 0).val / 8) + (i 1).val / 16 < cfg0.N := lt_of_lt_of_eq (by omega : 4 * ((i 0).val / 8) + (i 1).val / 16 < 128) N_0.symm
  refine ⟨⟨4 * ((i 0).val / 8) + (i 1).val / 16, hN⟩, flush0_8 _, ?_⟩
  obtain ⟨-, -, -, -, -, -, -, -, ⟨e0, e1, e2, e3⟩⟩ := idx_facts ⟨4 * ((i 0).val / 8) + (i 1).val / 16, hN⟩
  rw [mem_blk8]
  intro a
  match a with
  | ⟨0, _⟩ => show win0_8.index _ (0 : Fin 4) * 8 ≤ (i 0).val ∧ (i 0).val < win0_8.index _ (0 : Fin 4) * 8 + 8; rw [e0]; show (4 * ((i 0).val / 8) + (i 1).val / 16) / 4 * 8 ≤ _ ∧ _ < (4 * ((i 0).val / 8) + (i 1).val / 16) / 4 * 8 + 8; omega
  | ⟨1, _⟩ => show win0_8.index _ (1 : Fin 4) * 16 ≤ (i 1).val ∧ (i 1).val < win0_8.index _ (1 : Fin 4) * 16 + 16; rw [e1]; show (4 * ((i 0).val / 8) + (i 1).val / 16) % 4 * 16 ≤ _ ∧ _ < (4 * ((i 0).val / 8) + (i 1).val / 16) % 4 * 16 + 16; omega
  | ⟨2, _⟩ => show win0_8.index _ (2 : Fin 4) * 64 ≤ (i 2).val ∧ (i 2).val < win0_8.index _ (2 : Fin 4) * 64 + 64; rw [e2]; omega
  | ⟨3, _⟩ => show win0_8.index _ (3 : Fin 4) * 16 ≤ (i 3).val ∧ (i 3).val < win0_8.index _ (3 : Fin 4) * 16 + 16; rw [e3]; omega

/-- THE ARRAY after the region: `arrayOut` of the arrays as the region finds them. -/
theorem final8 (c : Dev nD) :
    (dats m 0 c).arrAt 8 cfg0.N
      = arrayOut (V m c main_v2) (V m c main_arg1) (V m c main_arg2) (V m c main_arg3) (V m c main_arg4) (V m c main_arg5) (V m c main_arg6) (V m c main_arg7) :=
  (dats m 0 c).arrAt_eq_of_cover 8 _ (fun t _ => flushed_eq m c t) cover8

end Cert.KernelIdeal.Hand

end
-- ==== Proof.LibFoldUpdate.lean ====
/-
  A left fold of point updates, read at one entry.

  Each element `n` of a list updates at most one entry of a function `r : κ → α`: with a target `g n = some i` it
  replaces `r i` by `f (r i) (v n)`, with no target it changes nothing. Folding the list from the left, an entry no
  element targets keeps its value; an entry exactly one element `n₀` of a duplicate-free list targets ends as
  `f` of its value and `v n₀`.
-/
import Mathlib.Data.List.Nodup

namespace Cert.Lib

section FoldUpdate

variable {ι κ α : Type} [DecidableEq κ]

/-- A left fold of single-entry updates leaves entry `i'` alone when no element of the list targets it.
    `step` is the update one list element `n` makes: with a target `g n = some i` it replaces entry `i` by
    `f (r i) (v n)`, with no target it changes nothing. -/
theorem foldl_update_miss (g : ι → Option κ) (v : ι → α) (f : α → α → α) (step : (κ → α) → ι → κ → α)
    (hsome : ∀ r n i, g n = some i → step r n = fun i' => if i' = i then f (r i) (v n) else r i')
    (hnone : ∀ r n, g n = none → step r n = r)
    (i' : κ) (L : List ι) (r : κ → α) (hL : ∀ n ∈ L, g n ≠ some i') :
    L.foldl step r i' = r i' := by
  induction L generalizing r with
  | nil => rfl
  | cons a L ih =>
    rw [List.foldl_cons, ih (step r a) fun n hn => hL n (List.mem_cons_of_mem a hn)]
    cases hg : g a with
    | none => rw [hnone r a hg]
    | some i =>
      have hne : i' ≠ i := fun e => hL a List.mem_cons_self (by rw [hg, e])
      rw [hsome r a i hg]
      exact if_neg hne

/-- The same fold gives entry `i'` the value `f (r i') (v n₀)` when exactly one element `n₀` of the duplicate-free list
    targets it: the steps before `n₀` leave the entry alone, the step of `n₀` sets it, the steps after leave it alone. -/
theorem foldl_update_hit (g : ι → Option κ) (v : ι → α) (f : α → α → α) (step : (κ → α) → ι → κ → α)
    (hsome : ∀ r n i, g n = some i → step r n = fun i' => if i' = i then f (r i) (v n) else r i')
    (hnone : ∀ r n, g n = none → step r n = r)
    (i' : κ) (n₀ : ι) (hn₀ : g n₀ = some i') (L : List ι) (r : κ → α) (hnd : L.Nodup) (hmem : n₀ ∈ L)
    (huniq : ∀ n ∈ L, g n = some i' → n = n₀) :
    L.foldl step r i' = f (r i') (v n₀) := by
  induction L generalizing r with
  | nil => exact absurd hmem List.not_mem_nil
  | cons a L ih =>
    rw [List.foldl_cons]
    have hnd' := List.nodup_cons.1 hnd
    by_cases ha : a = n₀
    · subst ha
      rw [foldl_update_miss g v f step hsome hnone i' L (step r a) fun n hn e =>
        hnd'.1 ((huniq n (List.mem_cons_of_mem a hn) e) ▸ hn)]
      rw [hsome r a i' hn₀]
      exact if_pos rfl
    · have hmem' : n₀ ∈ L := (List.mem_cons.1 hmem).resolve_left fun e => ha e.symm
      have hga : g a ≠ some i' := fun e => ha (huniq a List.mem_cons_self e)
      rw [ih (step r a) hnd'.2 hmem' fun n hn => huniq n (List.mem_cons_of_mem a hn)]
      congr 1
      cases hg : g a with
      | none => rw [hnone r a hg]
      | some i =>
        have hne : i' ≠ i := fun e => hga (by rw [hg, e])
        rw [hsome r a i hg]
        exact if_neg hne

end FoldUpdate

end Cert.Lib
-- ==== Proof.RefScatterAt.lean ====
/-
  The reference's two scatter-adds read at an entry.

  Each adds a 256 × 64 × 64 × 8 update onto eight consecutive hidden units of a 256 × 64 × 64 × 96 array, starting at the
  unit the one scatter index names: the update indices land on pairwise different entries, so entry `(b, r, c, h)` of
  the result is the operand's plus the update's at `(b, r, c, h - o)` when `o ≤ h < o + 8`, and the operand's elsewhere.
-/
import proofs.«119823_j26594437497233_2_alg».proof.Proof.RefTerm
import Idealize.ShloMosaic.Lib.ValueIdx
import proofs.«119823_j26594437497233_2_alg».proof.Proof.LibFoldUpdate

/-! ## The scatter-add onto eight hidden units -/

noncomputable section

namespace Cert.ReferenceIdeal.Hand

open Idealize.ShloMosaic Idealize.ShloMosaic.ValueIdx Cert.ReferenceIdeal

variable [Facts]
open Facts₀ Facts

local notation "dd" => scatter_S256x64x64x96_S1_S256x64x64x8_0123_n_3_0

/-- The one-element index array naming hidden unit `o`. -/
private abbrev unitIdx (o : ℕ) : IVec S1 32 := broadcastInDim S1 ![] bcast_S_S1 (constantI S_ 32 (BitVec.ofNat 32 o))

/-- A small natural number read back signed off its 32-bit word is itself. -/
private theorem toInt_ofNat_small (o : ℕ) (ho : o + 8 ≤ 96) : (BitVec.ofNat 32 o).toInt = (o : Int) := by
  simp only [BitVec.toInt_eq_toNat_cond, BitVec.toNat_ofNat]
  split <;> omega

/-- Update index `(jb, jr, jc, jh)` lands on entry `(jb, jr, jc, o + jh)`: the window starts at `0` on the first three
    axes and at `o` on the last, and the window coordinate on every axis is the update's own. -/
private theorem resultIdx_units (o : ℕ) (ho : o + 8 ≤ 96) (jb : Fin 256) (jr jc : Fin 64) (jh : Fin 8) :
    ScatterDims.resultIdx? dd (ix4 jb jr jc jh) (unitIdx o) = some (ix4 jb jr jc (⟨o + jh.val, by omega⟩ : Fin 96)) := by
  have h3 := toInt_ofNat_small o ho
  have hsum : ∀ a, ScatterDims.start dd (ix4 jb jr jc jh) (unitIdx o) a + (ScatterDims.window dd (ix4 jb jr jc jh) a : Int)
      = (((ix4 jb jr jc (⟨o + jh.val, by omega⟩ : Fin 96) : S256x64x64x96.Idx) a).val : Int) := by
    intro a
    match a with
    | ⟨0, _⟩ => exact (show (0 : Int) + (jb.val : Int) = (jb.val : Int) from zero_add _)
    | ⟨1, _⟩ => exact (show (0 : Int) + (jr.val : Int) = (jr.val : Int) from zero_add _)
    | ⟨2, _⟩ => exact (show (0 : Int) + (jc.val : Int) = (jc.val : Int) from zero_add _)
    | ⟨3, _⟩ =>
      show (BitVec.ofNat 32 o).toInt + (jh.val : Int) = ((o + jh.val : ℕ) : Int)
      rw [h3, Nat.cast_add]
  have hcond : ∀ a, 0 ≤ ScatterDims.start dd (ix4 jb jr jc jh) (unitIdx o) a + ScatterDims.window dd (ix4 jb jr jc jh) a ∧
      ScatterDims.start dd (ix4 jb jr jc jh) (unitIdx o) a + ScatterDims.window dd (ix4 jb jr jc jh) a < S256x64x64x96.size a := by
    intro a
    rw [hsum a]
    exact ⟨Int.natCast_nonneg _, Int.ofNat_lt.2 ((ix4 jb jr jc (⟨o + jh.val, by omega⟩ : Fin 96) : S256x64x64x96.Idx) a).isLt⟩
  unfold ScatterDims.resultIdx?
  rw [dif_pos hcond]
  refine congrArg some (funext fun a => Fin.ext ?_)
  show (ScatterDims.start dd (ix4 jb jr jc jh) (unitIdx o) a + (ScatterDims.window dd (ix4 jb jr jc jh) a : Int)).toNat = _
  rw [hsum a]
  exact Int.toNat_natCast _

/-- Entry `(b, r, c, h)` after the scatter-add of `u` at hidden unit `o` (`o + 8 ≤ 96`). -/
theorem scatter_units_apply (x : FVec Ideal S256x64x64x96 .f32) (u : FVec Ideal S256x64x64x8 .f32) (o : ℕ) (ho : o + 8 ≤ 96)
    (b : Fin 256) (r c : Fin 64) (h : Fin 96) :
    Host.scatter scatter_S256x64x64x96_S1_S256x64x64x8_0123_n_3_0 FloatOps.addf x
        (broadcastInDim S1 ![] bcast_S_S1 (constantI S_ 32 (BitVec.ofNat 32 o))) u (ix4 b r c h)
      = if hh : o ≤ h.val ∧ h.val < o + 8 then x (ix4 b r c h) + u (ix4 b r c ⟨h.val - o, by omega⟩)
        else x (ix4 b r c h) := by
  -- every update index is `ix4` of literal-size coordinates
  have hsplit : ∀ n : Fin S256x64x64x8.numel, ∃ (jb : Fin 256) (jr jc : Fin 64) (jh : Fin 8),
      S256x64x64x8.rowMajor.symm n = ix4 jb jr jc jh := fun n => ⟨_, _, _, _, eq_ix4 _⟩
  unfold Host.scatter
  by_cases hh : o ≤ h.val ∧ h.val < o + 8
  · rw [dif_pos hh]
    refine (Cert.Lib.foldl_update_hit
      (g := fun n => ScatterDims.resultIdx? dd (S256x64x64x8.rowMajor.symm n) (unitIdx o))
      (v := fun n => u (S256x64x64x8.rowMajor.symm n)) (f := FloatOps.addf) _ ?_ ?_ (ix4 b r c h)
      (S256x64x64x8.rowMajor (ix4 b r c (⟨h.val - o, by omega⟩ : Fin 8))) ?_ _ x (List.nodup_finRange _)
      (List.mem_finRange _) ?_).trans ?_
    · intro r' n i hg
      dsimp only
      rw [hg]
    · intro r' n hg
      dsimp only
      rw [hg]
    · rw [Equiv.symm_apply_apply]
      exact (resultIdx_units o ho b r c _).trans
        (congrArg some (congrArg (ix4 b r c) (Fin.ext (Nat.add_sub_cancel' hh.1))))
    · intro n _ hg
      obtain ⟨jb, jr, jc, jh, hj⟩ := hsplit n
      rw [hj, resultIdx_units o ho] at hg
      have hi := Option.some.inj hg
      have e0 : jb = b := congrFun hi 0
      have e1 : jr = r := congrFun hi 1
      have e2 : jc = c := congrFun hi 2
      have e3 : (⟨o + jh.val, by omega⟩ : Fin 96) = h := congrFun hi 3
      have e3v : o + jh.val = h.val := congrArg Fin.val e3
      have e3' : jh = (⟨h.val - o, by omega⟩ : Fin 8) := Fin.ext (by show jh.val = h.val - o; omega)
      refine (Equiv.symm_apply_eq _).1 (hj.trans ?_)
      rw [e0, e1, e2, e3']
    · rw [Equiv.symm_apply_apply]
      rfl
  · rw [dif_neg hh]
    refine Cert.Lib.foldl_update_miss
      (g := fun n => ScatterDims.resultIdx? dd (S256x64x64x8.rowMajor.symm n) (unitIdx o))
      (v := fun n => u (S256x64x64x8.rowMajor.symm n)) (f := FloatOps.addf) _ ?_ ?_ (ix4 b r c h) _ x ?_
    · intro r' n i hg
      dsimp only
      rw [hg]
    · intro r' n hg
      dsimp only
      rw [hg]
    · intro n _ hg
      obtain ⟨jb, jr, jc, jh, hj⟩ := hsplit n
      rw [hj, resultIdx_units o ho] at hg
      have e3 : (⟨o + jh.val, by omega⟩ : Fin 96) = h := congrFun (Option.some.inj hg) 3
      have e3v : o + jh.val = h.val := congrArg Fin.val e3
      exact hh ⟨by omega, by omega⟩

end Cert.ReferenceIdeal.Hand

end
-- ==== Proof.RefCoreAt.lean ====
/-
  The reference's network read at one tile: entry `(b, 64 r + c, o)` of `core` is the tile network on tile `(r, c)` of
  block `b`, with the block's weights and the positional vectors of row `r` and column `c`.
-/
import proofs.«119823_j26594437497233_2_alg».proof.Proof.RefTerm
import proofs.«119823_j26594437497233_2_alg».proof.Proof.RefScatterAt
import proofs.«119823_j26594437497233_2_alg».proof.Proof.HyperSpec
import proofs.«119823_j26594437497233_2_alg».proof.Proof.LibBatchedDot
import proofs.«119823_j26594437497233_2_alg».proof.Proof.LibTileCast
import Idealize.ShloMosaic.Lib.IdealHost

noncomputable section

namespace Cert.ReferenceIdeal.Hand

open Idealize.ShloMosaic Idealize.ShloMosaic.ValueIdx Cert.ReferenceIdeal

variable [Facts]
open Facts₀ Facts

/-- The first bias, broadcast over the tiles' rows and columns, read at `(b, r, c, h)`. -/
private theorem bias_apply (a2 : FVec Ideal S256x96 .f32) (b : Fin 256) (r c : Fin 64) (h : Fin 96) :
    broadcastInDim S256x64x64x96 ![0, 1, 2, 3] bcast_S256x1x1x96_S256x64x64x96_0_1_2_3
        (broadcastInDim S256x1x1x96 ![0, 3] bcast_S256x96_S256x1x1x96_0_3 a2) (ix4 b r c h)
      = a2 (ix2 b h) := by
  refine (broadcastInDim_apply _ _ _ (ix4 b r c h) (ix4 b (0 : Fin 1) (0 : Fin 1) h) ?_).trans ?_
  · intro a
    match a with
    | ⟨0, _⟩ => rfl
    | ⟨1, _⟩ => rfl
    | ⟨2, _⟩ => rfl
    | ⟨3, _⟩ => rfl
  · refine broadcastInDim_apply _ _ _ (ix4 b (0 : Fin 1) (0 : Fin 1) h) (ix2 b h) ?_
    intro a
    match a with
    | ⟨0, _⟩ => rfl
    | ⟨1, _⟩ => rfl

/-- The row vector, broadcast over the columns, read at `(b, r, c, e)`. -/
private theorem rowvec_apply (a3 : FVec Ideal S256x64x8 .f32) (b : Fin 256) (r c : Fin 64) (e : Fin 8) :
    broadcastInDim S256x64x64x8 ![0, 1, 2, 3] bcast_S256x64x1x8_S256x64x64x8_0_1_2_3
        (broadcastInDim S256x64x1x8 ![0, 1, 3] bcast_S256x64x8_S256x64x1x8_0_1_3 a3) (ix4 b r c e)
      = a3 (ix3 b r e) := by
  refine (broadcastInDim_apply _ _ _ (ix4 b r c e) (ix4 b r (0 : Fin 1) e) ?_).trans ?_
  · intro a
    match a with
    | ⟨0, _⟩ => rfl
    | ⟨1, _⟩ => rfl
    | ⟨2, _⟩ => rfl
    | ⟨3, _⟩ => rfl
  · refine broadcastInDim_apply _ _ _ (ix4 b r (0 : Fin 1) e) (ix3 b r e) ?_
    intro a
    match a with
    | ⟨0, _⟩ => rfl
    | ⟨1, _⟩ => rfl
    | ⟨2, _⟩ => rfl

/-- The column vector, broadcast over the rows, read at `(b, r, c, e)`. -/
private theorem colvec_apply (a4 : FVec Ideal S256x64x8 .f32) (b : Fin 256) (r c : Fin 64) (e : Fin 8) :
    broadcastInDim S256x64x64x8 ![0, 1, 2, 3] bcast_S256x1x64x8_S256x64x64x8_0_1_2_3
        (broadcastInDim S256x1x64x8 ![0, 2, 3] bcast_S256x64x8_S256x1x64x8_0_2_3 a4) (ix4 b r c e)
      = a4 (ix3 b c e) := by
  refine (broadcastInDim_apply _ _ _ (ix4 b r c e) (ix4 b (0 : Fin 1) c e) ?_).trans ?_
  · intro a
    match a with
    | ⟨0, _⟩ => rfl
    | ⟨1, _⟩ => rfl
    | ⟨2, _⟩ => rfl
    | ⟨3, _⟩ => rfl
  · refine broadcastInDim_apply _ _ _ (ix4 b (0 : Fin 1) c e) (ix3 b c e) ?_
    intro a
    match a with
    | ⟨0, _⟩ => rfl
    | ⟨1, _⟩ => rfl
    | ⟨2, _⟩ => rfl

/-- A per-block vector of sixteen, broadcast over the tiles, read at `(b, t, o)`. -/
private theorem outvec_apply (a : FVec Ideal S256x16 .f32) (b : Fin 256) (t : Fin 4096) (o : Fin 16) :
    broadcastInDim S256x4096x16 ![0, 1, 2] bcast_S256x1x16_S256x4096x16_0_1_2
        (broadcastInDim S256x1x16 ![0, 2] bcast_S256x16_S256x1x16_0_2 a) (ix3 b t o)
      = a (ix2 b o) := by
  refine (broadcastInDim_apply _ _ _ (ix3 b t o) (ix3 b (0 : Fin 1) o) ?_).trans ?_
  · intro a'
    match a' with
    | ⟨0, _⟩ => rfl
    | ⟨1, _⟩ => rfl
    | ⟨2, _⟩ => rfl
  · refine broadcastInDim_apply _ _ _ (ix3 b (0 : Fin 1) o) (ix2 b o) ?_
    intro a'
    match a' with
    | ⟨0, _⟩ => rfl
    | ⟨1, _⟩ => rfl

/-- A scalar constant broadcast to the hidden array reads the constant's value everywhere. -/
private theorem splat_apply (w : BitVec 32) (j : S256x64x64x96.Idx) :
    broadcastInDim S256x64x64x96 ![] bcast_S_S256x64x64x96 (constant (F := Ideal) S_ .f32 w) j = Ideal.ofBits .f32 w :=
  (broadcastInDim_scalar_apply bcast_S_S256x64x64x96 (constant (F := Ideal) S_ .f32 w) j).trans rfl

/-- The activation as the reference spells it is the tile network's activation, entry by entry. -/
theorem elu_apply (x : FVec Ideal S256x64x64x96 .f32) (j : S256x64x64x96.Idx) :
    elu (F := Ideal) x j = Cert.Hyper.act (x j) := by
  unfold elu
  simp only [select_apply, cmpf_apply, mulf_apply, Host.expm1, id,
    Ideal.cmpf_def, Ideal.hostUnary_expm1_def]
  rw [splat_apply, splat_apply]
  unfold Cert.Hyper.act
  by_cases hc : Ideal.cmp .ogt (x j) (Ideal.ofBits .f32 0x00000000#32) = 1#1
  · rw [hc, select_one, select_one]
  · rw [eq_zero_of_ne_one hc, select_zero, select_zero, select_zero, Ideal.ofBits_one_f32, one_mul]

/-- The affine part of hidden unit `h` of tile `(r, c)`: the first product, laid out by tile, plus the bias. -/
private theorem lin_apply (Y : FVec Ideal S256x4096x16 .f32) (a1 : FVec Ideal S256x16x96 .f32) (a2 : FVec Ideal S256x96 .f32)
    (b : Fin 256) (r c : Fin 64) (h : Fin 96) (t : Fin 4096) (ht : t.val = 64 * r.val + c.val) :
    addf (shapeCast S256x64x64x96 (Host.dotGeneral dot_S256x4096x16_S256x16x96_S256x4096x96_2_1_1_2_0_0 none Y a1)
          shapeCasts_S256x4096x96_S256x64x64x96)
        (broadcastInDim S256x64x64x96 ![0, 1, 2, 3] bcast_S256x1x1x96_S256x64x64x96_0_1_2_3
          (broadcastInDim S256x1x1x96 ![0, 3] bcast_S256x96_S256x1x1x96_0_3 a2)) (ix4 b r c h)
      = Cert.Hyper.lin (fun k => Y (ix3 b t k)) (fun k h => a1 (ix3 b k h)) (fun h => a2 (ix2 b h)) h := by
  refine (addf_apply _ _ _).trans ?_
  rw [bias_apply, Cert.Lib.shapeCast_split_apply (by norm_num : 4096 = 64 * 64) _ _ b r c h t ht]
  simp only [Host.dotGeneral]
  rw [Cert.Lib.dotGeneral_batched_apply _ rfl rfl rfl rfl rfl rfl]
  rfl

/-- Hidden unit `h` of tile `(r, c)` of block `b` before the activation. -/
theorem hidden_apply (Y : FVec Ideal S256x4096x16 .f32) (a1 : FVec Ideal S256x16x96 .f32) (a2 : FVec Ideal S256x96 .f32)
    (a3 a4 : FVec Ideal S256x64x8 .f32)
    (b : Fin 256) (r c : Fin 64) (h : Fin 96) (t : Fin 4096) (ht : t.val = 64 * r.val + c.val) :
    hidden (F := Ideal) Y a1 a2 a3 a4 (ix4 b r c h)
      = Cert.Hyper.pre (fun k => Y (ix3 b t k)) (fun k h => a1 (ix3 b k h)) (fun h => a2 (ix2 b h))
          (fun e => a3 (ix3 b r e)) (fun e => a4 (ix3 b c e)) h := by
  unfold hidden
  refine (scatter_units_apply _ _ 8 (by norm_num) b r c h).trans ?_
  rw [scatter_units_apply _ _ 0 (by norm_num) b r c h, lin_apply Y a1 a2 b r c h t ht]
  unfold Cert.Hyper.pre
  by_cases h8 : h.val < 8
  · have hn : ¬(8 ≤ h.val ∧ h.val < 8 + 8) := by omega
    have hp : 0 ≤ h.val ∧ h.val < 0 + 8 := by omega
    rw [dif_neg hn, dif_pos hp, dif_pos h8, rowvec_apply]
    rfl
  · have hn : ¬(0 ≤ h.val ∧ h.val < 0 + 8) := by omega
    by_cases h16 : h.val < 16
    · have hp : 8 ≤ h.val ∧ h.val < 8 + 8 := by omega
      rw [dif_pos hp, dif_neg hn, dif_neg h8, dif_pos h16, colvec_apply]
    · have hn' : ¬(8 ≤ h.val ∧ h.val < 8 + 8) := by omega
      rw [dif_neg hn', dif_neg hn, dif_neg h8, dif_neg h16]

/-- Entry `(b, 64 r + c, o)` of the network is output `o` of the tile network on tile `(r, c)` of block `b`. -/
theorem core_apply (Y : FVec Ideal S256x4096x16 .f32) (a1 : FVec Ideal S256x16x96 .f32) (a2 : FVec Ideal S256x96 .f32)
    (a3 a4 : FVec Ideal S256x64x8 .f32) (a5 : FVec Ideal S256x96x16 .f32) (a6 a7 : FVec Ideal S256x16 .f32)
    (b : Fin 256) (r c : Fin 64) (o : Fin 16) (t : Fin 4096) (ht : t.val = 64 * r.val + c.val) :
    core (F := Ideal) Y a1 a2 a3 a4 a5 a6 a7 (ix3 b t o)
      = Cert.Hyper.tile (fun k => Y (ix3 b t k)) (fun k h => a1 (ix3 b k h)) (fun h => a2 (ix2 b h))
          (fun e => a3 (ix3 b r e)) (fun e => a4 (ix3 b c e)) (fun h o' => a5 (ix3 b h o'))
          (fun o' => a6 (ix2 b o')) (fun o' => a7 (ix2 b o')) o := by
  unfold core
  refine (addf_apply _ _ _).trans ?_
  rw [addf_apply, mulf_apply, outvec_apply a6, outvec_apply a7]
  simp only [Host.dotGeneral]
  rw [Cert.Lib.dotGeneral_batched_apply _ rfl rfl rfl rfl rfl rfl]
  unfold Cert.Hyper.tile
  refine congrArg (fun s => s + a6 (ix2 b o) + Y (ix3 b t o) * a7 (ix2 b o)) (Finset.sum_congr rfl fun h _ => ?_)
  rw [Cert.Lib.shapeCast_merge_apply (by norm_num : 4096 = 64 * 64) _ _ b r c h t ht, elu_apply,
    hidden_apply Y a1 a2 a3 a4 b r c h t ht]

end Cert.ReferenceIdeal.Hand

end
-- ==== Proof.Bridge.lean ====
/-
  The two programs compute one function of their arguments.

  Both tile the matrix the same way up to a regrouping of the tile axis: the reference's tiled array is the kernel's
  with tile `(r, c)` at row `64 r + c`; on such arrays the reference's network is the kernel's output array regrouped
  the same way, tile by tile (both are the tile network on the same sixteen numbers, weights and positional vectors);
  and laying the tiles back undoes the regrouping. Shape casts compose, so no index of the 4096 × 4096 matrix is ever
  opened.
-/
import proofs.«119823_j26594437497233_2_alg».proof.Proof.Gen.ReferenceIdeal
import proofs.«119823_j26594437497233_2_alg».proof.Proof.RefTerm
import proofs.«119823_j26594437497233_2_alg».proof.Proof.RefCoreAt
import proofs.«119823_j26594437497233_2_alg».proof.Proof.KerArray
import proofs.«119823_j26594437497233_2_alg».proof.Proof.KerRun
import proofs.«119823_j26594437497233_2_alg».proof.Proof.LibTileCast

noncomputable section

namespace Cert.Proof.Hand

open Idealize.ShloMosaic Idealize.ShloMosaic.ValueIdx

/-- The tile axes regroup: 256 × 64 × 64 × 16 and 256 × 4096 × 16 have as many entries. -/
theorem casts43 : Cert.KernelIdeal.S256x64x64x16.ShapeCasts Cert.ReferenceIdeal.S256x4096x16 := by decide

/-- The reference's tiled array is the kernel's, regrouped. -/
theorem head_eq (a0 : FVec Ideal Cert.KernelIdeal.S4096x4096 .f32) :
    Cert.ReferenceIdeal.Hand.head (F := Ideal) a0
      = shapeCast Cert.ReferenceIdeal.S256x4096x16 (Cert.KernelIdeal.Hand.head (F := Ideal) a0) casts43 :=
  (Cert.Lib.shapeCast_trans _ _ _ _).symm

/-- Laying back the regrouped tiles is laying back the tiles. -/
theorem tail_eq (Z : FVec Ideal Cert.KernelIdeal.S256x64x64x16 .f32) :
    Cert.ReferenceIdeal.Hand.tail (F := Ideal) (shapeCast Cert.ReferenceIdeal.S256x4096x16 Z casts43)
      = Cert.KernelIdeal.Hand.tail (F := Ideal) Z := by
  unfold Cert.ReferenceIdeal.Hand.tail Cert.KernelIdeal.Hand.tail
  rw [Cert.Lib.shapeCast_trans Z casts43 _ Cert.KernelIdeal.Facts₀.shapeCasts_S256x64x64x16_S16x16x64x64x4x4]

/-- On the regrouped array the reference's network is the kernel's output array, regrouped. -/
theorem core_eq (X : FVec Ideal Cert.KernelIdeal.S256x64x64x16 .f32) (a1 : FVec Ideal Cert.KernelIdeal.S256x16x96 .f32)
    (a2 : FVec Ideal Cert.KernelIdeal.S256x96 .f32) (a3 a4 : FVec Ideal Cert.KernelIdeal.S256x64x8 .f32)
    (a5 : FVec Ideal Cert.KernelIdeal.S256x96x16 .f32) (a6 a7 : FVec Ideal Cert.KernelIdeal.S256x16 .f32) :
    Cert.ReferenceIdeal.Hand.core (F := Ideal) (shapeCast Cert.ReferenceIdeal.S256x4096x16 X casts43) a1 a2 a3 a4 a5 a6 a7
      = shapeCast Cert.ReferenceIdeal.S256x4096x16 (Cert.KernelIdeal.Hand.arrayOut X a1 a2 a3 a4 a5 a6 a7) casts43 := by
  funext j
  obtain ⟨b, t, o, rfl⟩ : ∃ (b : Fin 256) (t : Fin 4096) (o : Fin 16), j = ix3 b t o := ⟨j 0, j 1, j 2, eq_ix3 j⟩
  have htl : t.val < 4096 := t.isLt
  have ht : t.val = 64 * (⟨t.val / 64, by omega⟩ : Fin 64).val + (⟨t.val % 64, by omega⟩ : Fin 64).val := by
    show t.val = 64 * (t.val / 64) + t.val % 64; omega
  refine (Cert.ReferenceIdeal.Hand.core_apply _ a1 a2 a3 a4 a5 a6 a7 b ⟨t.val / 64, by omega⟩ ⟨t.val % 64, by omega⟩ o t ht).trans ?_
  refine Eq.trans ?_ (Cert.Lib.shapeCast_merge_apply (R := 64) (C := 64) (by norm_num) _ casts43 b ⟨t.val / 64, by omega⟩ ⟨t.val % 64, by omega⟩ o t ht).symm
  show _ = Cert.KernelIdeal.Hand.tileAt X a1 a2 a3 a4 a5 a6 a7 b ⟨t.val / 64, _⟩ ⟨t.val % 64, _⟩ o
  unfold Cert.KernelIdeal.Hand.tileAt
  have hX : (fun k => shapeCast Cert.ReferenceIdeal.S256x4096x16 X casts43 (ix3 b t k))
      = fun k => X (ix4 b (⟨t.val / 64, by omega⟩ : Fin 64) (⟨t.val % 64, by omega⟩ : Fin 64) k) :=
    funext fun k => Cert.Lib.shapeCast_merge_apply (R := 64) (C := 64) (by norm_num) X casts43 b _ _ k t ht
  rw [hX]

/-- THE BRIDGE: the reference's result is the kernel's. -/
theorem result_eq (a0 : FVec Ideal Cert.KernelIdeal.S4096x4096 .f32) (a1 : FVec Ideal Cert.KernelIdeal.S256x16x96 .f32)
    (a2 : FVec Ideal Cert.KernelIdeal.S256x96 .f32) (a3 a4 : FVec Ideal Cert.KernelIdeal.S256x64x8 .f32)
    (a5 : FVec Ideal Cert.KernelIdeal.S256x96x16 .f32) (a6 a7 : FVec Ideal Cert.KernelIdeal.S256x16 .f32) :
    Cert.ReferenceIdeal.Hand.result (F := Ideal) a0 a1 a2 a3 a4 a5 a6 a7
      = Cert.KernelIdeal.Hand.tail (F := Ideal)
          (Cert.KernelIdeal.Hand.arrayOut (Cert.KernelIdeal.Hand.head (F := Ideal) a0) a1 a2 a3 a4 a5 a6 a7) := by
  unfold Cert.ReferenceIdeal.Hand.result
  rw [head_eq, core_eq, tail_eq]

end Cert.Proof.Hand

end
-- ==== Proof.lean ====
/-
  The kernel and its reference compute the same matrix over the extended reals.

  Both programs cut the 4096 × 4096 matrix into 256 blocks of 64 × 64 tiles of 4 × 4 entries and apply to every tile a
  small two-layer network whose weights belong to the tile's block: sixteen inputs, 96 hidden units — the first eight
  shifted by a vector that depends on the tile's row, the next eight by one that depends on its column —, the
  activation `x` for `x > 0` and `exp x - 1` otherwise, sixteen outputs, plus a bias and the input scaled entrywise.
  The kernel does this eight blocks and sixteen tile rows at a time, with the tiles as a 256 × 64 × 64 × 16 array, the
  hidden units' shifts by slicing and concatenating, and `exp x - 1` spelt out; the reference does it on a
  256 × 4096 × 16 array, with the shifts as two scatter-adds and `expm1`. At the extended reals a change of float
  format is the identity, `expm1 x` is `exp x - 1`, each product is the same finite sum in the same order, and the
  two layouts differ by a regrouping of the tile axis that the final untiling undoes: no algebraic law beyond
  `1 · y = y` is used, and nothing about the inputs' finiteness.

  The kernel's frames are the generated ones; the reference's frame is its run with the result dropped; the ideal
  pass rewrote nothing, so the kernel's idealization is its own text.
-/
import proofs.«119823_j26594437497233_2_alg».proof.Defs
import proofs.«119823_j26594437497233_2_alg».proof.Proof.Gen.Kernel
import proofs.«119823_j26594437497233_2_alg».proof.Proof.Gen.Kernel.Frame
import proofs.«119823_j26594437497233_2_alg».proof.Proof.Gen.KernelIdeal
import proofs.«119823_j26594437497233_2_alg».proof.Proof.Gen.KernelIdeal.Frame
import proofs.«119823_j26594437497233_2_alg».proof.Proof.Gen.ReferenceIdeal
import proofs.«119823_j26594437497233_2_alg».proof.Proof.Gen.Pre_finite_inputs
import proofs.«119823_j26594437497233_2_alg».proof.Proof.RefRun
import proofs.«119823_j26594437497233_2_alg».proof.Proof.KerRun
import proofs.«119823_j26594437497233_2_alg».proof.Proof.KerArray
import proofs.«119823_j26594437497233_2_alg».proof.Proof.Bridge
import Idealize.ShloMosaic.Adequacy
import Idealize.ShloMosaic.Init

noncomputable section

namespace Cert.Proof

open Idealize.ShloMosaic Idealize.ShloMosaic.TcCoe Idealize.SL.Sem

/-- The word-level kernel runs and keeps its arguments: the generated frame. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- The reference runs and keeps its arguments: its run, the result dropped. -/
theorem frame_referenceIdeal : Cert.frame_ReferenceIdeal := fun m ρ _ =>
  (θ_run Cert.ReferenceIdeal.defs _ _).mono (fun _ h c => (h c).2) (Cert.ReferenceIdeal.Hand.run m ρ)

/-- The ideal pass rewrote no operation. -/
theorem preserves : Cert.preserves_Kernel_KernelIdeal := trivial

/-- From memories agreeing on the arguments both programs end with the same matrix: the tiles laid back after the tile
    network has been applied to each. -/
theorem algebraic : Cert.algebraic_KernelIdeal_ReferenceIdeal := by
  intro m ρ m' ρ' _ hagree
  refine ⟨fun c => Cert.KernelIdeal.Hand.tail (F := Ideal)
      (Cert.KernelIdeal.Hand.arrayOut (Cert.KernelIdeal.Hand.head (F := Ideal) (m ((c.tc : Thread Cert.KernelIdeal.nD Cert.KernelIdeal.τ).loc Cert.KernelIdeal.main_arg0))) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))), ?_, ?_⟩
  · refine (θ_run Cert.KernelIdeal.defs _ _).mono (fun r h c => ⟨(h c).1.trans ?_, (h c).2⟩) (Cert.KernelIdeal.Hand.run_arr m ρ)
    rw [Cert.KernelIdeal.Hand.final8, Cert.KernelIdeal.Hand.V_main_v2, Cert.KernelIdeal.Gen.V_main_arg1, Cert.KernelIdeal.Gen.V_main_arg2,
      Cert.KernelIdeal.Gen.V_main_arg3, Cert.KernelIdeal.Gen.V_main_arg4, Cert.KernelIdeal.Gen.V_main_arg5, Cert.KernelIdeal.Gen.V_main_arg6,
      Cert.KernelIdeal.Gen.V_main_arg7]
  · refine (θ_run Cert.ReferenceIdeal.defs _ _).mono (fun r h c => ⟨(h c).1.trans ?_, (h c).2⟩) (Cert.ReferenceIdeal.Hand.run m' ρ')
    rw [(hagree c).1, (hagree c).2.1, (hagree c).2.2.1, (hagree c).2.2.2.1, (hagree c).2.2.2.2.1, (hagree c).2.2.2.2.2.1,
      (hagree c).2.2.2.2.2.2.1, (hagree c).2.2.2.2.2.2.2]
    exact Cert.Proof.Hand.result_eq _ _ _ _ _ _ _ _

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
